-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S16384x1024 : Shape := ⟨2, ![16384, 1024]⟩
abbrev S1024x1024 : Shape := ⟨2, ![1024, 1024]⟩
abbrev S1024x1x2x512 : Shape := ⟨4, ![1024, 1, 2, 512]⟩
abbrev S1024x1x2 : Shape := ⟨3, ![1024, 1, 2]⟩
abbrev S1024x1 : Shape := ⟨2, ![1024, 1]⟩
abbrev S1024x1x1 : Shape := ⟨3, ![1024, 1, 1]⟩
abbrev S1024x1x2x1 : Shape := ⟨4, ![1024, 1, 2, 1]⟩
abbrev S1024x2x2x256 : Shape := ⟨4, ![1024, 2, 2, 256]⟩
abbrev S1024x2x2 : Shape := ⟨3, ![1024, 2, 2]⟩
abbrev S1024x2 : Shape := ⟨2, ![1024, 2]⟩
abbrev S1024x2x1 : Shape := ⟨3, ![1024, 2, 1]⟩
abbrev S1024x2x2x1 : Shape := ⟨4, ![1024, 2, 2, 1]⟩
abbrev S1024x4x2x128 : Shape := ⟨4, ![1024, 4, 2, 128]⟩
abbrev S1024x4x2 : Shape := ⟨3, ![1024, 4, 2]⟩
abbrev S1024x4 : Shape := ⟨2, ![1024, 4]⟩
abbrev S1024x4x1 : Shape := ⟨3, ![1024, 4, 1]⟩
abbrev S1024x4x2x1 : Shape := ⟨4, ![1024, 4, 2, 1]⟩
abbrev S1024x8x2x64 : Shape := ⟨4, ![1024, 8, 2, 64]⟩
abbrev S1024x8x2 : Shape := ⟨3, ![1024, 8, 2]⟩
abbrev S1024x8 : Shape := ⟨2, ![1024, 8]⟩
abbrev S1024x8x1 : Shape := ⟨3, ![1024, 8, 1]⟩
abbrev S1024x8x2x1 : Shape := ⟨4, ![1024, 8, 2, 1]⟩
abbrev S1024x16x2x32 : Shape := ⟨4, ![1024, 16, 2, 32]⟩
abbrev S1024x16x2 : Shape := ⟨3, ![1024, 16, 2]⟩
abbrev S1024x16 : Shape := ⟨2, ![1024, 16]⟩
abbrev S1024x16x1 : Shape := ⟨3, ![1024, 16, 1]⟩
abbrev S1024x16x2x1 : Shape := ⟨4, ![1024, 16, 2, 1]⟩
abbrev S1024x32x2x16 : Shape := ⟨4, ![1024, 32, 2, 16]⟩
abbrev S1024x32x2 : Shape := ⟨3, ![1024, 32, 2]⟩
abbrev S1024x32 : Shape := ⟨2, ![1024, 32]⟩
abbrev S1024x32x1 : Shape := ⟨3, ![1024, 32, 1]⟩
abbrev S1024x32x2x1 : Shape := ⟨4, ![1024, 32, 2, 1]⟩
abbrev S1024x64x2x8 : Shape := ⟨4, ![1024, 64, 2, 8]⟩
abbrev S1024x64x2 : Shape := ⟨3, ![1024, 64, 2]⟩
abbrev S1024x64 : Shape := ⟨2, ![1024, 64]⟩
abbrev S1024x64x1 : Shape := ⟨3, ![1024, 64, 1]⟩
abbrev S1024x64x2x1 : Shape := ⟨4, ![1024, 64, 2, 1]⟩
abbrev S1024x128x2x4 : Shape := ⟨4, ![1024, 128, 2, 4]⟩
abbrev S1024x128x2 : Shape := ⟨3, ![1024, 128, 2]⟩
abbrev S1024x128 : Shape := ⟨2, ![1024, 128]⟩
abbrev S1024x128x1 : Shape := ⟨3, ![1024, 128, 1]⟩
abbrev S1024x128x2x1 : Shape := ⟨4, ![1024, 128, 2, 1]⟩
abbrev S1024x256x2x2 : Shape := ⟨4, ![1024, 256, 2, 2]⟩
abbrev S1024x256x2 : Shape := ⟨3, ![1024, 256, 2]⟩
abbrev S1024x256 : Shape := ⟨2, ![1024, 256]⟩
abbrev S1024x256x1 : Shape := ⟨3, ![1024, 256, 1]⟩
abbrev S1024x256x2x1 : Shape := ⟨4, ![1024, 256, 2, 1]⟩
abbrev S1024x512x2x1 : Shape := ⟨4, ![1024, 512, 2, 1]⟩
abbrev S1024x512x2 : Shape := ⟨3, ![1024, 512, 2]⟩
abbrev S1024x512 : Shape := ⟨2, ![1024, 512]⟩
abbrev S1024x512x1 : Shape := ⟨3, ![1024, 512, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1x2x512 : S1024x1024.ShapeCasts S1024x1x2x512
  reduces_S1024x1x2x512_S1024x1x2 : S1024x1x2x512.Reduces [3] S1024x1x2
  reduces_S1024x1x2_S1024x1 : S1024x1x2.Reduces [2] S1024x1
  shapeCasts_S1024x1_S1024x1x1 : S1024x1.ShapeCasts S1024x1x1
  broadcasts_S1024x1x1_S1024x1x2 : S1024x1x1.Broadcasts S1024x1x2
  shapeCasts_S1024x1x2_S1024x1x2x1 : S1024x1x2.ShapeCasts S1024x1x2x1
  broadcasts_S1024x1x2x1_S1024x1x2x512 : S1024x1x2x1.Broadcasts S1024x1x2x512
  shapeCasts_S1024x1x2x512_S1024x1024 : S1024x1x2x512.ShapeCasts S1024x1024
  shapeCasts_S1024x1024_S1024x2x2x256 : S1024x1024.ShapeCasts S1024x2x2x256
  reduces_S1024x2x2x256_S1024x2x2 : S1024x2x2x256.Reduces [3] S1024x2x2
  reduces_S1024x2x2_S1024x2 : S1024x2x2.Reduces [2] S1024x2
  shapeCasts_S1024x2_S1024x2x1 : S1024x2.ShapeCasts S1024x2x1
  broadcasts_S1024x2x1_S1024x2x2 : S1024x2x1.Broadcasts S1024x2x2
  shapeCasts_S1024x2x2_S1024x2x2x1 : S1024x2x2.ShapeCasts S1024x2x2x1
  broadcasts_S1024x2x2x1_S1024x2x2x256 : S1024x2x2x1.Broadcasts S1024x2x2x256
  shapeCasts_S1024x2x2x256_S1024x1024 : S1024x2x2x256.ShapeCasts S1024x1024
  shapeCasts_S1024x1024_S1024x4x2x128 : S1024x1024.ShapeCasts S1024x4x2x128
  reduces_S1024x4x2x128_S1024x4x2 : S1024x4x2x128.Reduces [3] S1024x4x2
  reduces_S1024x4x2_S1024x4 : S1024x4x2.Reduces [2] S1024x4
  shapeCasts_S1024x4_S1024x4x1 : S1024x4.ShapeCasts S1024x4x1
  broadcasts_S1024x4x1_S1024x4x2 : S1024x4x1.Broadcasts S1024x4x2
  shapeCasts_S1024x4x2_S1024x4x2x1 : S1024x4x2.ShapeCasts S1024x4x2x1
  broadcasts_S1024x4x2x1_S1024x4x2x128 : S1024x4x2x1.Broadcasts S1024x4x2x128
  shapeCasts_S1024x4x2x128_S1024x1024 : S1024x4x2x128.ShapeCasts S1024x1024
  shapeCasts_S1024x1024_S1024x8x2x64 : S1024x1024.ShapeCasts S1024x8x2x64
  reduces_S1024x8x2x64_S1024x8x2 : S1024x8x2x64.Reduces [3] S1024x8x2
  reduces_S1024x8x2_S1024x8 : S1024x8x2.Reduces [2] S1024x8
  shapeCasts_S1024x8_S1024x8x1 : S1024x8.ShapeCasts S1024x8x1
  broadcasts_S1024x8x1_S1024x8x2 : S1024x8x1.Broadcasts S1024x8x2
  shapeCasts_S1024x8x2_S1024x8x2x1 : S1024x8x2.ShapeCasts S1024x8x2x1
  broadcasts_S1024x8x2x1_S1024x8x2x64 : S1024x8x2x1.Broadcasts S1024x8x2x64
  shapeCasts_S1024x8x2x64_S1024x1024 : S1024x8x2x64.ShapeCasts S1024x1024
  shapeCasts_S1024x1024_S1024x16x2x32 : S1024x1024.ShapeCasts S1024x16x2x32
  reduces_S1024x16x2x32_S1024x16x2 : S1024x16x2x32.Reduces [3] S1024x16x2
  reduces_S1024x16x2_S1024x16 : S1024x16x2.Reduces [2] S1024x16
  shapeCasts_S1024x16_S1024x16x1 : S1024x16.ShapeCasts S1024x16x1
  broadcasts_S1024x16x1_S1024x16x2 : S1024x16x1.Broadcasts S1024x16x2
  shapeCasts_S1024x16x2_S1024x16x2x1 : S1024x16x2.ShapeCasts S1024x16x2x1
  broadcasts_S1024x16x2x1_S1024x16x2x32 : S1024x16x2x1.Broadcasts S1024x16x2x32
  shapeCasts_S1024x16x2x32_S1024x1024 : S1024x16x2x32.ShapeCasts S1024x1024
  shapeCasts_S1024x1024_S1024x32x2x16 : S1024x1024.ShapeCasts S1024x32x2x16
  reduces_S1024x32x2x16_S1024x32x2 : S1024x32x2x16.Reduces [3] S1024x32x2
  reduces_S1024x32x2_S1024x32 : S1024x32x2.Reduces [2] S1024x32
  shapeCasts_S1024x32_S1024x32x1 : S1024x32.ShapeCasts S1024x32x1
  broadcasts_S1024x32x1_S1024x32x2 : S1024x32x1.Broadcasts S1024x32x2
  shapeCasts_S1024x32x2_S1024x32x2x1 : S1024x32x2.ShapeCasts S1024x32x2x1
  broadcasts_S1024x32x2x1_S1024x32x2x16 : S1024x32x2x1.Broadcasts S1024x32x2x16
  shapeCasts_S1024x32x2x16_S1024x1024 : S1024x32x2x16.ShapeCasts S1024x1024
  shapeCasts_S1024x1024_S1024x64x2x8 : S1024x1024.ShapeCasts S1024x64x2x8
  reduces_S1024x64x2x8_S1024x64x2 : S1024x64x2x8.Reduces [3] S1024x64x2
  reduces_S1024x64x2_S1024x64 : S1024x64x2.Reduces [2] S1024x64
  shapeCasts_S1024x64_S1024x64x1 : S1024x64.ShapeCasts S1024x64x1
  broadcasts_S1024x64x1_S1024x64x2 : S1024x64x1.Broadcasts S1024x64x2
  shapeCasts_S1024x64x2_S1024x64x2x1 : S1024x64x2.ShapeCasts S1024x64x2x1
  broadcasts_S1024x64x2x1_S1024x64x2x8 : S1024x64x2x1.Broadcasts S1024x64x2x8
  shapeCasts_S1024x64x2x8_S1024x1024 : S1024x64x2x8.ShapeCasts S1024x1024
  shapeCasts_S1024x1024_S1024x128x2x4 : S1024x1024.ShapeCasts S1024x128x2x4
  reduces_S1024x128x2x4_S1024x128x2 : S1024x128x2x4.Reduces [3] S1024x128x2
  reduces_S1024x128x2_S1024x128 : S1024x128x2.Reduces [2] S1024x128
  shapeCasts_S1024x128_S1024x128x1 : S1024x128.ShapeCasts S1024x128x1
  broadcasts_S1024x128x1_S1024x128x2 : S1024x128x1.Broadcasts S1024x128x2
  shapeCasts_S1024x128x2_S1024x128x2x1 : S1024x128x2.ShapeCasts S1024x128x2x1
  broadcasts_S1024x128x2x1_S1024x128x2x4 : S1024x128x2x1.Broadcasts S1024x128x2x4
  shapeCasts_S1024x128x2x4_S1024x1024 : S1024x128x2x4.ShapeCasts S1024x1024
  shapeCasts_S1024x1024_S1024x256x2x2 : S1024x1024.ShapeCasts S1024x256x2x2
  reduces_S1024x256x2x2_S1024x256x2 : S1024x256x2x2.Reduces [3] S1024x256x2
  reduces_S1024x256x2_S1024x256 : S1024x256x2.Reduces [2] S1024x256
  shapeCasts_S1024x256_S1024x256x1 : S1024x256.ShapeCasts S1024x256x1
  broadcasts_S1024x256x1_S1024x256x2 : S1024x256x1.Broadcasts S1024x256x2
  shapeCasts_S1024x256x2_S1024x256x2x1 : S1024x256x2.ShapeCasts S1024x256x2x1
  broadcasts_S1024x256x2x1_S1024x256x2x2 : S1024x256x2x1.Broadcasts S1024x256x2x2
  shapeCasts_S1024x256x2x2_S1024x1024 : S1024x256x2x2.ShapeCasts S1024x1024
  shapeCasts_S1024x1024_S1024x512x2x1 : S1024x1024.ShapeCasts S1024x512x2x1
  reduces_S1024x512x2x1_S1024x512x2 : S1024x512x2x1.Reduces [3] S1024x512x2
  reduces_S1024x512x2_S1024x512 : S1024x512x2.Reduces [2] S1024x512
  shapeCasts_S1024x512_S1024x512x1 : S1024x512.ShapeCasts S1024x512x1
  broadcasts_S1024x512x1_S1024x512x2 : S1024x512x1.Broadcasts S1024x512x2
  shapeCasts_S1024x512x2_S1024x512x2x1 : S1024x512x2.ShapeCasts S1024x512x2x1
  shapeCasts_S1024x512x2x1_S1024x1024 : S1024x512x2x1.ShapeCasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S16384x1x2x512 : Shape := ⟨4, ![16384, 1, 2, 512]⟩
abbrev S16384x1x2 : Shape := ⟨3, ![16384, 1, 2]⟩
abbrev S16384x1 : Shape := ⟨2, ![16384, 1]⟩
abbrev S16384x1x1 : Shape := ⟨3, ![16384, 1, 1]⟩
abbrev S16384x1x2x1 : Shape := ⟨4, ![16384, 1, 2, 1]⟩
abbrev S16384x2x2x256 : Shape := ⟨4, ![16384, 2, 2, 256]⟩
abbrev S16384x2x2 : Shape := ⟨3, ![16384, 2, 2]⟩
abbrev S16384x2 : Shape := ⟨2, ![16384, 2]⟩
abbrev S16384x2x1 : Shape := ⟨3, ![16384, 2, 1]⟩
abbrev S16384x2x2x1 : Shape := ⟨4, ![16384, 2, 2, 1]⟩
abbrev S16384x4x2x128 : Shape := ⟨4, ![16384, 4, 2, 128]⟩
abbrev S16384x4x2 : Shape := ⟨3, ![16384, 4, 2]⟩
abbrev S16384x4 : Shape := ⟨2, ![16384, 4]⟩
abbrev S16384x4x1 : Shape := ⟨3, ![16384, 4, 1]⟩
abbrev S16384x4x2x1 : Shape := ⟨4, ![16384, 4, 2, 1]⟩
abbrev S16384x8x2x64 : Shape := ⟨4, ![16384, 8, 2, 64]⟩
abbrev S16384x8x2 : Shape := ⟨3, ![16384, 8, 2]⟩
abbrev S16384x8 : Shape := ⟨2, ![16384, 8]⟩
abbrev S16384x8x1 : Shape := ⟨3, ![16384, 8, 1]⟩
abbrev S16384x8x2x1 : Shape := ⟨4, ![16384, 8, 2, 1]⟩
abbrev S16384x16x2x32 : Shape := ⟨4, ![16384, 16, 2, 32]⟩
abbrev S16384x16x2 : Shape := ⟨3, ![16384, 16, 2]⟩
abbrev S16384x16 : Shape := ⟨2, ![16384, 16]⟩
abbrev S16384x16x1 : Shape := ⟨3, ![16384, 16, 1]⟩
abbrev S16384x16x2x1 : Shape := ⟨4, ![16384, 16, 2, 1]⟩
abbrev S16384x32x2x16 : Shape := ⟨4, ![16384, 32, 2, 16]⟩
abbrev S16384x32x2 : Shape := ⟨3, ![16384, 32, 2]⟩
abbrev S16384x32 : Shape := ⟨2, ![16384, 32]⟩
abbrev S16384x32x1 : Shape := ⟨3, ![16384, 32, 1]⟩
abbrev S16384x32x2x1 : Shape := ⟨4, ![16384, 32, 2, 1]⟩
abbrev S16384x64x2x8 : Shape := ⟨4, ![16384, 64, 2, 8]⟩
abbrev S16384x64x2 : Shape := ⟨3, ![16384, 64, 2]⟩
abbrev S16384x64 : Shape := ⟨2, ![16384, 64]⟩
abbrev S16384x64x1 : Shape := ⟨3, ![16384, 64, 1]⟩
abbrev S16384x64x2x1 : Shape := ⟨4, ![16384, 64, 2, 1]⟩
abbrev S16384x128x2x4 : Shape := ⟨4, ![16384, 128, 2, 4]⟩
abbrev S16384x128x2 : Shape := ⟨3, ![16384, 128, 2]⟩
abbrev S16384x128 : Shape := ⟨2, ![16384, 128]⟩
abbrev S16384x128x1 : Shape := ⟨3, ![16384, 128, 1]⟩
abbrev S16384x128x2x1 : Shape := ⟨4, ![16384, 128, 2, 1]⟩
abbrev S16384x256x2x2 : Shape := ⟨4, ![16384, 256, 2, 2]⟩
abbrev S16384x256x2 : Shape := ⟨3, ![16384, 256, 2]⟩
abbrev S16384x256 : Shape := ⟨2, ![16384, 256]⟩
abbrev S16384x256x1 : Shape := ⟨3, ![16384, 256, 1]⟩
abbrev S16384x256x2x1 : Shape := ⟨4, ![16384, 256, 2, 1]⟩
abbrev S16384x512x2x1 : Shape := ⟨4, ![16384, 512, 2, 1]⟩
abbrev S16384x512x2 : Shape := ⟨3, ![16384, 512, 2]⟩
abbrev S16384x512 : Shape := ⟨2, ![16384, 512]⟩
abbrev S16384x512x1 : Shape := ⟨3, ![16384, 512, 1]⟩

abbrev nBuf : Space → Nat
  | .hbm => 252
  | .vmem => 0
  | .smem => 0
  | _ => 0

abbrev hbmTy0_0 (i : Nat) : BufTy := match i % 128 with
  | 0 => ⟨S16384x1024, .f32⟩
  | 1 => ⟨S_, .f32⟩
  | 2 => ⟨S16384x1024, .f32⟩
  | 3 => ⟨S16384x1x2x512, .f32⟩
  | 4 => ⟨S_, .f32⟩
  | 5 => ⟨S16384x1x2, .f32⟩
  | 6 => ⟨S_, .f32⟩
  | 7 => ⟨S16384x1x2, .f32⟩
  | 8 => ⟨S16384x1x2, .f32⟩
  | 9 => ⟨S_, .f32⟩
  | 10 => ⟨S16384x1, .f32⟩
  | 11 => ⟨S_, .f32⟩
  | 12 => ⟨S16384x1, .f32⟩
  | 13 => ⟨S16384x1, .f32⟩
  | 14 => ⟨S16384x1x1, .f32⟩
  | 15 => ⟨S16384x1x2, .f32⟩
  | 16 => ⟨S16384x1x2, .f32⟩
  | 17 => ⟨S16384x1x2, .f32⟩
  | 18 => ⟨S_, .f32⟩
  | 19 => ⟨S16384x1, .f32⟩
  | 20 => ⟨S16384x1x1, .f32⟩
  | 21 => ⟨S16384x1x2, .f32⟩
  | 22 => ⟨S16384x1x2, .f32⟩
  | 23 => ⟨S16384x1x2x512, .f32⟩
  | 24 => ⟨S16384x1x2x1, .f32⟩
  | 25 => ⟨S16384x1x2x512, .f32⟩
  | 26 => ⟨S16384x1x2x512, .f32⟩
  | 27 => ⟨S16384x1024, .f32⟩
  | 28 => ⟨S16384x2x2x256, .f32⟩
  | 29 => ⟨S_, .f32⟩
  | 30 => ⟨S16384x2x2, .f32⟩
  | 31 => ⟨S_, .f32⟩
  | 32 => ⟨S16384x2x2, .f32⟩
  | 33 => ⟨S16384x2x2, .f32⟩
  | 34 => ⟨S_, .f32⟩
  | 35 => ⟨S16384x2, .f32⟩
  | 36 => ⟨S_, .f32⟩
  | 37 => ⟨S16384x2, .f32⟩
  | 38 => ⟨S16384x2, .f32⟩
  | 39 => ⟨S16384x2x1, .f32⟩
  | 40 => ⟨S16384x2x2, .f32⟩
  | 41 => ⟨S16384x2x2, .f32⟩
  | 42 => ⟨S16384x2x2, .f32⟩
  | 43 => ⟨S_, .f32⟩
  | 44 => ⟨S16384x2, .f32⟩
  | 45 => ⟨S16384x2x1, .f32⟩
  | 46 => ⟨S16384x2x2, .f32⟩
  | 47 => ⟨S16384x2x2, .f32⟩
  | 48 => ⟨S16384x2x2x256, .f32⟩
  | 49 => ⟨S16384x2x2x1, .f32⟩
  | 50 => ⟨S16384x2x2x256, .f32⟩
  | 51 => ⟨S16384x2x2x256, .f32⟩
  | 52 => ⟨S16384x1024, .f32⟩
  | 53 => ⟨S16384x4x2x128, .f32⟩
  | 54 => ⟨S_, .f32⟩
  | 55 => ⟨S16384x4x2, .f32⟩
  | 56 => ⟨S_, .f32⟩
  | 57 => ⟨S16384x4x2, .f32⟩
  | 58 => ⟨S16384x4x2, .f32⟩
  | 59 => ⟨S_, .f32⟩
  | 60 => ⟨S16384x4, .f32⟩
  | 61 => ⟨S_, .f32⟩
  | 62 => ⟨S16384x4, .f32⟩
  | 63 => ⟨S16384x4, .f32⟩
  | 64 => ⟨S16384x4x1, .f32⟩
  | 65 => ⟨S16384x4x2, .f32⟩
  | 66 => ⟨S16384x4x2, .f32⟩
  | 67 => ⟨S16384x4x2, .f32⟩
  | 68 => ⟨S_, .f32⟩
  | 69 => ⟨S16384x4, .f32⟩
  | 70 => ⟨S16384x4x1, .f32⟩
  | 71 => ⟨S16384x4x2, .f32⟩
  | 72 => ⟨S16384x4x2, .f32⟩
  | 73 => ⟨S16384x4x2x128, .f32⟩
  | 74 => ⟨S16384x4x2x1, .f32⟩
  | 75 => ⟨S16384x4x2x128, .f32⟩
  | 76 => ⟨S16384x4x2x128, .f32⟩
  | 77 => ⟨S16384x1024, .f32⟩
  | 78 => ⟨S16384x8x2x64, .f32⟩
  | 79 => ⟨S_, .f32⟩
  | 80 => ⟨S16384x8x2, .f32⟩
  | 81 => ⟨S_, .f32⟩
  | 82 => ⟨S16384x8x2, .f32⟩
  | 83 => ⟨S16384x8x2, .f32⟩
  | 84 => ⟨S_, .f32⟩
  | 85 => ⟨S16384x8, .f32⟩
  | 86 => ⟨S_, .f32⟩
  | 87 => ⟨S16384x8, .f32⟩
  | 88 => ⟨S16384x8, .f32⟩
  | 89 => ⟨S16384x8x1, .f32⟩
  | 90 => ⟨S16384x8x2, .f32⟩
  | 91 => ⟨S16384x8x2, .f32⟩
  | 92 => ⟨S16384x8x2, .f32⟩
  | 93 => ⟨S_, .f32⟩
  | 94 => ⟨S16384x8, .f32⟩
  | 95 => ⟨S16384x8x1, .f32⟩
  | 96 => ⟨S16384x8x2, .f32⟩
  | 97 => ⟨S16384x8x2, .f32⟩
  | 98 => ⟨S16384x8x2x64, .f32⟩
  | 99 => ⟨S16384x8x2x1, .f32⟩
  | 100 => ⟨S16384x8x2x64, .f32⟩
  | 101 => ⟨S16384x8x2x64, .f32⟩
  | 102 => ⟨S16384x1024, .f32⟩
  | 103 => ⟨S16384x16x2x32, .f32⟩
  | 104 => ⟨S_, .f32⟩
  | 105 => ⟨S16384x16x2, .f32⟩
  | 106 => ⟨S_, .f32⟩
  | 107 => ⟨S16384x16x2, .f32⟩
  | 108 => ⟨S16384x16x2, .f32⟩
  | 109 => ⟨S_, .f32⟩
  | 110 => ⟨S16384x16, .f32⟩
  | 111 => ⟨S_, .f32⟩
  | 112 => ⟨S16384x16, .f32⟩
  | 113 => ⟨S16384x16, .f32⟩
  | 114 => ⟨S16384x16x1, .f32⟩
  | 115 => ⟨S16384x16x2, .f32⟩
  | 116 => ⟨S16384x16x2, .f32⟩
  | 117 => ⟨S16384x16x2, .f32⟩
  | 118 => ⟨S_, .f32⟩
  | 119 => ⟨S16384x16, .f32⟩
  | 120 => ⟨S16384x16x1, .f32⟩
  | 121 => ⟨S16384x16x2, .f32⟩
  | 122 => ⟨S16384x16x2, .f32⟩
  | 123 => ⟨S16384x16x2x32, .f32⟩
  | 124 => ⟨S16384x16x2x1, .f32⟩
  | 125 => ⟨S16384x16x2x32, .f32⟩
  | 126 => ⟨S16384x16x2x32, .f32⟩
  | 127 => ⟨S16384x1024, .f32⟩
  | _ => ⟨S16384x1024, .f32⟩

abbrev hbmTy0_1 (i : Nat) : BufTy := match i % 128 with
  | 0 => ⟨S16384x32x2x16, .f32⟩
  | 1 => ⟨S_, .f32⟩
  | 2 => ⟨S16384x32x2, .f32⟩
  | 3 => ⟨S_, .f32⟩
  | 4 => ⟨S16384x32x2, .f32⟩
  | 5 => ⟨S16384x32x2, .f32⟩
  | 6 => ⟨S_, .f32⟩
  | 7 => ⟨S16384x32, .f32⟩
  | 8 => ⟨S_, .f32⟩
  | 9 => ⟨S16384x32, .f32⟩
  | 10 => ⟨S16384x32, .f32⟩
  | 11 => ⟨S16384x32x1, .f32⟩
  | 12 => ⟨S16384x32x2, .f32⟩
  | 13 => ⟨S16384x32x2, .f32⟩
  | 14 => ⟨S16384x32x2, .f32⟩
  | 15 => ⟨S_, .f32⟩
  | 16 => ⟨S16384x32, .f32⟩
  | 17 => ⟨S16384x32x1, .f32⟩
  | 18 => ⟨S16384x32x2, .f32⟩
  | 19 => ⟨S16384x32x2, .f32⟩
  | 20 => ⟨S16384x32x2x16, .f32⟩
  | 21 => ⟨S16384x32x2x1, .f32⟩
  | 22 => ⟨S16384x32x2x16, .f32⟩
  | 23 => ⟨S16384x32x2x16, .f32⟩
  | 24 => ⟨S16384x1024, .f32⟩
  | 25 => ⟨S16384x64x2x8, .f32⟩
  | 26 => ⟨S_, .f32⟩
  | 27 => ⟨S16384x64x2, .f32⟩
  | 28 => ⟨S_, .f32⟩
  | 29 => ⟨S16384x64x2, .f32⟩
  | 30 => ⟨S16384x64x2, .f32⟩
  | 31 => ⟨S_, .f32⟩
  | 32 => ⟨S16384x64, .f32⟩
  | 33 => ⟨S_, .f32⟩
  | 34 => ⟨S16384x64, .f32⟩
  | 35 => ⟨S16384x64, .f32⟩
  | 36 => ⟨S16384x64x1, .f32⟩
  | 37 => ⟨S16384x64x2, .f32⟩
  | 38 => ⟨S16384x64x2, .f32⟩
  | 39 => ⟨S16384x64x2, .f32⟩
  | 40 => ⟨S_, .f32⟩
  | 41 => ⟨S16384x64, .f32⟩
  | 42 => ⟨S16384x64x1, .f32⟩
  | 43 => ⟨S16384x64x2, .f32⟩
  | 44 => ⟨S16384x64x2, .f32⟩
  | 45 => ⟨S16384x64x2x8, .f32⟩
  | 46 => ⟨S16384x64x2x1, .f32⟩
  | 47 => ⟨S16384x64x2x8, .f32⟩
  | 48 => ⟨S16384x64x2x8, .f32⟩
  | 49 => ⟨S16384x1024, .f32⟩
  | 50 => ⟨S16384x128x2x4, .f32⟩
  | 51 => ⟨S_, .f32⟩
  | 52 => ⟨S16384x128x2, .f32⟩
  | 53 => ⟨S_, .f32⟩
  | 54 => ⟨S16384x128x2, .f32⟩
  | 55 => ⟨S16384x128x2, .f32⟩
  | 56 => ⟨S_, .f32⟩
  | 57 => ⟨S16384x128, .f32⟩
  | 58 => ⟨S_, .f32⟩
  | 59 => ⟨S16384x128, .f32⟩
  | 60 => ⟨S16384x128, .f32⟩
  | 61 => ⟨S16384x128x1, .f32⟩
  | 62 => ⟨S16384x128x2, .f32⟩
  | 63 => ⟨S16384x128x2, .f32⟩
  | 64 => ⟨S16384x128x2, .f32⟩
  | 65 => ⟨S_, .f32⟩
  | 66 => ⟨S16384x128, .f32⟩
  | 67 => ⟨S16384x128x1, .f32⟩
  | 68 => ⟨S16384x128x2, .f32⟩
  | 69 => ⟨S16384x128x2, .f32⟩
  | 70 => ⟨S16384x128x2x4, .f32⟩
  | 71 => ⟨S16384x128x2x1, .f32⟩
  | 72 => ⟨S16384x128x2x4, .f32⟩
  | 73 => ⟨S16384x128x2x4, .f32⟩
  | 74 => ⟨S16384x1024, .f32⟩
  | 75 => ⟨S16384x256x2x2, .f32⟩
  | 76 => ⟨S_, .f32⟩
  | 77 => ⟨S16384x256x2, .f32⟩
  | 78 => ⟨S_, .f32⟩
  | 79 => ⟨S16384x256x2, .f32⟩
  | 80 => ⟨S16384x256x2, .f32⟩
  | 81 => ⟨S_, .f32⟩
  | 82 => ⟨S16384x256, .f32⟩
  | 83 => ⟨S_, .f32⟩
  | 84 => ⟨S16384x256, .f32⟩
  | 85 => ⟨S16384x256, .f32⟩
  | 86 => ⟨S16384x256x1, .f32⟩
  | 87 => ⟨S16384x256x2, .f32⟩
  | 88 => ⟨S16384x256x2, .f32⟩
  | 89 => ⟨S16384x256x2, .f32⟩
  | 90 => ⟨S_, .f32⟩
  | 91 => ⟨S16384x256, .f32⟩
  | 92 => ⟨S16384x256x1, .f32⟩
  | 93 => ⟨S16384x256x2, .f32⟩
  | 94 => ⟨S16384x256x2, .f32⟩
  | 95 => ⟨S16384x256x2x2, .f32⟩
  | 96 => ⟨S16384x256x2x1, .f32⟩
  | 97 => ⟨S16384x256x2x2, .f32⟩
  | 98 => ⟨S16384x256x2x2, .f32⟩
  | 99 => ⟨S16384x1024, .f32⟩
  | 100 => ⟨S16384x512x2x1, .f32⟩
  | 101 => ⟨S_, .f32⟩
  | 102 => ⟨S16384x512x2, .f32⟩
  | 103 => ⟨S_, .f32⟩
  | 104 => ⟨S16384x512x2, .f32⟩
  | 105 => ⟨S16384x512x2, .f32⟩
  | 106 => ⟨S_, .f32⟩
  | 107 => ⟨S16384x512, .f32⟩
  | 108 => ⟨S_, .f32⟩
  | 109 => ⟨S16384x512, .f32⟩
  | 110 => ⟨S16384x512, .f32⟩
  | 111 => ⟨S16384x512x1, .f32⟩
  | 112 => ⟨S16384x512x2, .f32⟩
  | 113 => ⟨S16384x512x2, .f32⟩
  | 114 => ⟨S16384x512x2, .f32⟩
  | 115 => ⟨S_, .f32⟩
  | 116 => ⟨S16384x512, .f32⟩
  | 117 => ⟨S16384x512x1, .f32⟩
  | 118 => ⟨S16384x512x2, .f32⟩
  | 119 => ⟨S16384x512x2, .f32⟩
  | 120 => ⟨S16384x512x2x1, .f32⟩
  | 121 => ⟨S16384x512x2x1, .f32⟩
  | 122 => ⟨S16384x512x2x1, .f32⟩
  | 123 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_cst_6 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_9 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_10 : Ref sig .tc := ⟨.hbm, 54, rfl⟩
abbrev main_v42 : Ref sig .tc := ⟨.hbm, 55, rfl⟩
abbrev main_cst_11 : Ref sig .tc := ⟨.hbm, 56, rfl⟩
abbrev main_v43 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_cst_13 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_14 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_15 : Ref sig .tc := ⟨.hbm, 79, rfl⟩
abbrev main_v62 : Ref sig .tc := ⟨.hbm, 80, rfl⟩
abbrev main_cst_16 : Ref sig .tc := ⟨.hbm, 81, rfl⟩
abbrev main_v63 : Ref sig .tc := ⟨.hbm, 82, rfl⟩
abbrev main_v64 : Ref sig .tc := ⟨.hbm, 83, rfl⟩
abbrev main_cst_17 : Ref sig .tc := ⟨.hbm, 84, rfl⟩
abbrev main_v65 : Ref sig .tc := ⟨.hbm, 85, rfl⟩
abbrev main_cst_18 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_19 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_20 : Ref sig .tc := ⟨.hbm, 104, rfl⟩
abbrev main_v82 : Ref sig .tc := ⟨.hbm, 105, rfl⟩
abbrev main_cst_21 : Ref sig .tc := ⟨.hbm, 106, rfl⟩
abbrev main_v83 : Ref sig .tc := ⟨.hbm, 107, rfl⟩
abbrev main_v84 : Ref sig .tc := ⟨.hbm, 108, rfl⟩
abbrev main_cst_22 : Ref sig .tc := ⟨.hbm, 109, rfl⟩
abbrev main_v85 : Ref sig .tc := ⟨.hbm, 110, rfl⟩
abbrev main_cst_23 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_24 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_cst_25 : Ref sig .tc := ⟨.hbm, 129, rfl⟩
abbrev main_v102 : Ref sig .tc := ⟨.hbm, 130, rfl⟩
abbrev main_cst_26 : Ref sig .tc := ⟨.hbm, 131, rfl⟩
abbrev main_v103 : Ref sig .tc := ⟨.hbm, 132, rfl⟩
abbrev main_v104 : Ref sig .tc := ⟨.hbm, 133, rfl⟩
abbrev main_cst_27 : Ref sig .tc := ⟨.hbm, 134, rfl⟩
abbrev main_v105 : Ref sig .tc := ⟨.hbm, 135, rfl⟩
abbrev main_cst_28 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_29 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_30 : Ref sig .tc := ⟨.hbm, 154, rfl⟩
abbrev main_v122 : Ref sig .tc := ⟨.hbm, 155, rfl⟩
abbrev main_cst_31 : Ref sig .tc := ⟨.hbm, 156, rfl⟩
abbrev main_v123 : Ref sig .tc := ⟨.hbm, 157, rfl⟩
abbrev main_v124 : Ref sig .tc := ⟨.hbm, 158, rfl⟩
abbrev main_cst_32 : Ref sig .tc := ⟨.hbm, 159, rfl⟩
abbrev main_v125 : Ref sig .tc := ⟨.hbm, 160, rfl⟩
abbrev main_cst_33 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_34 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_cst_35 : Ref sig .tc := ⟨.hbm, 179, rfl⟩
abbrev main_v142 : Ref sig .tc := ⟨.hbm, 180, rfl⟩
abbrev main_cst_36 : Ref sig .tc := ⟨.hbm, 181, rfl⟩
abbrev main_v143 : Ref sig .tc := ⟨.hbm, 182, rfl⟩
abbrev main_v144 : Ref sig .tc := ⟨.hbm, 183, rfl⟩
abbrev main_cst_37 : Ref sig .tc := ⟨.hbm, 184, rfl⟩
abbrev main_v145 : Ref sig .tc := ⟨.hbm, 185, rfl⟩
abbrev main_cst_38 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_39 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_cst_40 : Ref sig .tc := ⟨.hbm, 204, rfl⟩
abbrev main_v162 : Ref sig .tc := ⟨.hbm, 205, rfl⟩
abbrev main_cst_41 : Ref sig .tc := ⟨.hbm, 206, rfl⟩
abbrev main_v163 : Ref sig .tc := ⟨.hbm, 207, rfl⟩
abbrev main_v164 : Ref sig .tc := ⟨.hbm, 208, rfl⟩
abbrev main_cst_42 : Ref sig .tc := ⟨.hbm, 209, rfl⟩
abbrev main_v165 : Ref sig .tc := ⟨.hbm, 210, rfl⟩
abbrev main_cst_43 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_cst_44 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_cst_45 : Ref sig .tc := ⟨.hbm, 229, rfl⟩
abbrev main_v182 : Ref sig .tc := ⟨.hbm, 230, rfl⟩
abbrev main_cst_46 : Ref sig .tc := ⟨.hbm, 231, rfl⟩
abbrev main_v183 : Ref sig .tc := ⟨.hbm, 232, rfl⟩
abbrev main_v184 : Ref sig .tc := ⟨.hbm, 233, rfl⟩
abbrev main_cst_47 : Ref sig .tc := ⟨.hbm, 234, rfl⟩
abbrev main_v185 : Ref sig .tc := ⟨.hbm, 235, rfl⟩
abbrev main_cst_48 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_cst_49 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  shapeCasts_S16384x1024_S16384x1x2x512 : S16384x1024.ShapeCasts S16384x1x2x512
  reducesTo_S16384x1x2x512_S16384x1x2_d3 : S16384x1x2x512.ReducesTo [3] S16384x1x2
  h_S_ : 0 < S_.numel
  bcast_S_S16384x1x2 : S_.BroadcastsInDim S16384x1x2 (![] : Fin 0 → Fin S16384x1x2.rank)
  reducesTo_S16384x1x2_S16384x1_d2 : S16384x1x2.ReducesTo [2] S16384x1
  bcast_S_S16384x1 : S_.BroadcastsInDim S16384x1 (![] : Fin 0 → Fin S16384x1.rank)
  bcast_S16384x1_S16384x1x1_0_1 : S16384x1.BroadcastsInDim S16384x1x1 (![0, 1] : Fin 2 → Fin S16384x1x1.rank)
  bcast_S16384x1x1_S16384x1x2_0_1_2 : S16384x1x1.BroadcastsInDim S16384x1x2 (![0, 1, 2] : Fin 3 → Fin S16384x1x2.rank)
  bcast_S16384x1x2_S16384x1x2x1_0_1_2 : S16384x1x2.BroadcastsInDim S16384x1x2x1 (![0, 1, 2] : Fin 3 → Fin S16384x1x2x1.rank)
  bcast_S16384x1x2x1_S16384x1x2x512_0_1_2_3 : S16384x1x2x1.BroadcastsInDim S16384x1x2x512 (![0, 1, 2, 3] : Fin 4 → Fin S16384x1x2x512.rank)
  shapeCasts_S16384x1x2x512_S16384x1024 : S16384x1x2x512.ShapeCasts S16384x1024
  shapeCasts_S16384x1024_S16384x2x2x256 : S16384x1024.ShapeCasts S16384x2x2x256
  reducesTo_S16384x2x2x256_S16384x2x2_d3 : S16384x2x2x256.ReducesTo [3] S16384x2x2
  bcast_S_S16384x2x2 : S_.BroadcastsInDim S16384x2x2 (![] : Fin 0 → Fin S16384x2x2.rank)
  reducesTo_S16384x2x2_S16384x2_d2 : S16384x2x2.ReducesTo [2] S16384x2
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  bcast_S16384x2x1_S16384x2x2_0_1_2 : S16384x2x1.BroadcastsInDim S16384x2x2 (![0, 1, 2] : Fin 3 → Fin S16384x2x2.rank)
  bcast_S16384x2x2_S16384x2x2x1_0_1_2 : S16384x2x2.BroadcastsInDim S16384x2x2x1 (![0, 1, 2] : Fin 3 → Fin S16384x2x2x1.rank)
  bcast_S16384x2x2x1_S16384x2x2x256_0_1_2_3 : S16384x2x2x1.BroadcastsInDim S16384x2x2x256 (![0, 1, 2, 3] : Fin 4 → Fin S16384x2x2x256.rank)
  shapeCasts_S16384x2x2x256_S16384x1024 : S16384x2x2x256.ShapeCasts S16384x1024
  shapeCasts_S16384x1024_S16384x4x2x128 : S16384x1024.ShapeCasts S16384x4x2x128
  reducesTo_S16384x4x2x128_S16384x4x2_d3 : S16384x4x2x128.ReducesTo [3] S16384x4x2
  bcast_S_S16384x4x2 : S_.BroadcastsInDim S16384x4x2 (![] : Fin 0 → Fin S16384x4x2.rank)
  reducesTo_S16384x4x2_S16384x4_d2 : S16384x4x2.ReducesTo [2] S16384x4
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  bcast_S16384x4x1_S16384x4x2_0_1_2 : S16384x4x1.BroadcastsInDim S16384x4x2 (![0, 1, 2] : Fin 3 → Fin S16384x4x2.rank)
  bcast_S16384x4x2_S16384x4x2x1_0_1_2 : S16384x4x2.BroadcastsInDim S16384x4x2x1 (![0, 1, 2] : Fin 3 → Fin S16384x4x2x1.rank)
  bcast_S16384x4x2x1_S16384x4x2x128_0_1_2_3 : S16384x4x2x1.BroadcastsInDim S16384x4x2x128 (![0, 1, 2, 3] : Fin 4 → Fin S16384x4x2x128.rank)
  shapeCasts_S16384x4x2x128_S16384x1024 : S16384x4x2x128.ShapeCasts S16384x1024
  shapeCasts_S16384x1024_S16384x8x2x64 : S16384x1024.ShapeCasts S16384x8x2x64
  reducesTo_S16384x8x2x64_S16384x8x2_d3 : S16384x8x2x64.ReducesTo [3] S16384x8x2
  bcast_S_S16384x8x2 : S_.BroadcastsInDim S16384x8x2 (![] : Fin 0 → Fin S16384x8x2.rank)
  reducesTo_S16384x8x2_S16384x8_d2 : S16384x8x2.ReducesTo [2] S16384x8
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  bcast_S16384x8x1_S16384x8x2_0_1_2 : S16384x8x1.BroadcastsInDim S16384x8x2 (![0, 1, 2] : Fin 3 → Fin S16384x8x2.rank)
  bcast_S16384x8x2_S16384x8x2x1_0_1_2 : S16384x8x2.BroadcastsInDim S16384x8x2x1 (![0, 1, 2] : Fin 3 → Fin S16384x8x2x1.rank)
  bcast_S16384x8x2x1_S16384x8x2x64_0_1_2_3 : S16384x8x2x1.BroadcastsInDim S16384x8x2x64 (![0, 1, 2, 3] : Fin 4 → Fin S16384x8x2x64.rank)
  shapeCasts_S16384x8x2x64_S16384x1024 : S16384x8x2x64.ShapeCasts S16384x1024
  shapeCasts_S16384x1024_S16384x16x2x32 : S16384x1024.ShapeCasts S16384x16x2x32
  reducesTo_S16384x16x2x32_S16384x16x2_d3 : S16384x16x2x32.ReducesTo [3] S16384x16x2
  bcast_S_S16384x16x2 : S_.BroadcastsInDim S16384x16x2 (![] : Fin 0 → Fin S16384x16x2.rank)
  reducesTo_S16384x16x2_S16384x16_d2 : S16384x16x2.ReducesTo [2] S16384x16
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  bcast_S16384x16x1_S16384x16x2_0_1_2 : S16384x16x1.BroadcastsInDim S16384x16x2 (![0, 1, 2] : Fin 3 → Fin S16384x16x2.rank)
  bcast_S16384x16x2_S16384x16x2x1_0_1_2 : S16384x16x2.BroadcastsInDim S16384x16x2x1 (![0, 1, 2] : Fin 3 → Fin S16384x16x2x1.rank)
  bcast_S16384x16x2x1_S16384x16x2x32_0_1_2_3 : S16384x16x2x1.BroadcastsInDim S16384x16x2x32 (![0, 1, 2, 3] : Fin 4 → Fin S16384x16x2x32.rank)
  shapeCasts_S16384x16x2x32_S16384x1024 : S16384x16x2x32.ShapeCasts S16384x1024
  shapeCasts_S16384x1024_S16384x32x2x16 : S16384x1024.ShapeCasts S16384x32x2x16
  reducesTo_S16384x32x2x16_S16384x32x2_d3 : S16384x32x2x16.ReducesTo [3] S16384x32x2
  bcast_S_S16384x32x2 : S_.BroadcastsInDim S16384x32x2 (![] : Fin 0 → Fin S16384x32x2.rank)
  reducesTo_S16384x32x2_S16384x32_d2 : S16384x32x2.ReducesTo [2] S16384x32
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S16384x32x1_S16384x32x2_0_1_2 : S16384x32x1.BroadcastsInDim S16384x32x2 (![0, 1, 2] : Fin 3 → Fin S16384x32x2.rank)
  bcast_S16384x32x2_S16384x32x2x1_0_1_2 : S16384x32x2.BroadcastsInDim S16384x32x2x1 (![0, 1, 2] : Fin 3 → Fin S16384x32x2x1.rank)
  bcast_S16384x32x2x1_S16384x32x2x16_0_1_2_3 : S16384x32x2x1.BroadcastsInDim S16384x32x2x16 (![0, 1, 2, 3] : Fin 4 → Fin S16384x32x2x16.rank)
  shapeCasts_S16384x32x2x16_S16384x1024 : S16384x32x2x16.ShapeCasts S16384x1024
  shapeCasts_S16384x1024_S16384x64x2x8 : S16384x1024.ShapeCasts S16384x64x2x8
  reducesTo_S16384x64x2x8_S16384x64x2_d3 : S16384x64x2x8.ReducesTo [3] S16384x64x2
  bcast_S_S16384x64x2 : S_.BroadcastsInDim S16384x64x2 (![] : Fin 0 → Fin S16384x64x2.rank)
  reducesTo_S16384x64x2_S16384x64_d2 : S16384x64x2.ReducesTo [2] S16384x64
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  bcast_S16384x64x1_S16384x64x2_0_1_2 : S16384x64x1.BroadcastsInDim S16384x64x2 (![0, 1, 2] : Fin 3 → Fin S16384x64x2.rank)
  bcast_S16384x64x2_S16384x64x2x1_0_1_2 : S16384x64x2.BroadcastsInDim S16384x64x2x1 (![0, 1, 2] : Fin 3 → Fin S16384x64x2x1.rank)
  bcast_S16384x64x2x1_S16384x64x2x8_0_1_2_3 : S16384x64x2x1.BroadcastsInDim S16384x64x2x8 (![0, 1, 2, 3] : Fin 4 → Fin S16384x64x2x8.rank)
  shapeCasts_S16384x64x2x8_S16384x1024 : S16384x64x2x8.ShapeCasts S16384x1024
  shapeCasts_S16384x1024_S16384x128x2x4 : S16384x1024.ShapeCasts S16384x128x2x4
  reducesTo_S16384x128x2x4_S16384x128x2_d3 : S16384x128x2x4.ReducesTo [3] S16384x128x2
  bcast_S_S16384x128x2 : S_.BroadcastsInDim S16384x128x2 (![] : Fin 0 → Fin S16384x128x2.rank)
  reducesTo_S16384x128x2_S16384x128_d2 : S16384x128x2.ReducesTo [2] S16384x128
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  bcast_S16384x128x1_S16384x128x2_0_1_2 : S16384x128x1.BroadcastsInDim S16384x128x2 (![0, 1, 2] : Fin 3 → Fin S16384x128x2.rank)
  bcast_S16384x128x2_S16384x128x2x1_0_1_2 : S16384x128x2.BroadcastsInDim S16384x128x2x1 (![0, 1, 2] : Fin 3 → Fin S16384x128x2x1.rank)
  bcast_S16384x128x2x1_S16384x128x2x4_0_1_2_3 : S16384x128x2x1.BroadcastsInDim S16384x128x2x4 (![0, 1, 2, 3] : Fin 4 → Fin S16384x128x2x4.rank)
  shapeCasts_S16384x128x2x4_S16384x1024 : S16384x128x2x4.ShapeCasts S16384x1024
  shapeCasts_S16384x1024_S16384x256x2x2 : S16384x1024.ShapeCasts S16384x256x2x2
  reducesTo_S16384x256x2x2_S16384x256x2_d3 : S16384x256x2x2.ReducesTo [3] S16384x256x2
  bcast_S_S16384x256x2 : S_.BroadcastsInDim S16384x256x2 (![] : Fin 0 → Fin S16384x256x2.rank)
  reducesTo_S16384x256x2_S16384x256_d2 : S16384x256x2.ReducesTo [2] S16384x256
  bcast_S_S16384x256 : S_.BroadcastsInDim S16384x256 (![] : Fin 0 → Fin S16384x256.rank)
  bcast_S16384x256_S16384x256x1_0_1 : S16384x256.BroadcastsInDim S16384x256x1 (![0, 1] : Fin 2 → Fin S16384x256x1.rank)
  bcast_S16384x256x1_S16384x256x2_0_1_2 : S16384x256x1.BroadcastsInDim S16384x256x2 (![0, 1, 2] : Fin 3 → Fin S16384x256x2.rank)
  bcast_S16384x256x2_S16384x256x2x1_0_1_2 : S16384x256x2.BroadcastsInDim S16384x256x2x1 (![0, 1, 2] : Fin 3 → Fin S16384x256x2x1.rank)
  bcast_S16384x256x2x1_S16384x256x2x2_0_1_2_3 : S16384x256x2x1.BroadcastsInDim S16384x256x2x2 (![0, 1, 2, 3] : Fin 4 → Fin S16384x256x2x2.rank)
  shapeCasts_S16384x256x2x2_S16384x1024 : S16384x256x2x2.ShapeCasts S16384x1024
  shapeCasts_S16384x1024_S16384x512x2x1 : S16384x1024.ShapeCasts S16384x512x2x1
  reducesTo_S16384x512x2x1_S16384x512x2_d3 : S16384x512x2x1.ReducesTo [3] S16384x512x2
  bcast_S_S16384x512x2 : S_.BroadcastsInDim S16384x512x2 (![] : Fin 0 → Fin S16384x512x2.rank)
  reducesTo_S16384x512x2_S16384x512_d2 : S16384x512x2.ReducesTo [2] S16384x512
  bcast_S_S16384x512 : S_.BroadcastsInDim S16384x512 (![] : Fin 0 → Fin S16384x512.rank)
  bcast_S16384x512_S16384x512x1_0_1 : S16384x512.BroadcastsInDim S16384x512x1 (![0, 1] : Fin 2 → Fin S16384x512x1.rank)
  bcast_S16384x512x1_S16384x512x2_0_1_2 : S16384x512x1.BroadcastsInDim S16384x512x2 (![0, 1, 2] : Fin 3 → Fin S16384x512x2.rank)
  bcast_S16384x512x2_S16384x512x2x1_0_1_2 : S16384x512x2.BroadcastsInDim S16384x512x2x1 (![0, 1, 2] : Fin 3 → Fin S16384x512x2x1.rank)
  shapeCasts_S16384x512x2x1_S16384x1024 : S16384x512x2x1.ShapeCasts S16384x1024

variable [Facts₀]

class Facts : Prop extends Facts₀ where

variable [Facts]
-- ==== Proof.LibTreeLevel.lean ====
/-
  One level of a soft decision tree over a complete binary tree, as array operations, read at an index.

  An array `x` of `R` rows and `C` columns is viewed as `R × n × 2 × b` (`n` nodes of the level, two children each,
  `b` leaves under a child, `n * 2 * b = C`).  A level takes the MEAN of `x` over the leaves of each child, a two-way
  SOFTMAX of the two means of each node (exponentials of the means minus their maximum, over their sum), and MULTIPLIES
  a running array `cp`, leaf by leaf, by the probability of the child the leaf sits under.

  The same level is spelt twice below: with the vector unit's operations (shape casts, `multi_reduction`, broadcasts of
  trailing unit axes) and with the host's (`reshape`, `reduce`, `broadcast_in_dim`).  Each stage of either spelling
  is shown equal, index by index at the exact extended reals, to one function of coordinates (`meanAt`, `softAt`,
  `scaleAt`): a sum over the leaves under a child, a quotient of exponentials, a product.  Nothing here depends on the
  extents: they are variables, the shape facts the operations ask for are hypotheses, and the row-major bijection of
  the reshape is never opened.
-/
import Idealize.ShloMosaic.Lib.ValueIdx
import Idealize.ShloMosaic.Lib.Pipeline.Value
import Idealize.ShloMosaic.PureOps.Ideal.Laws
import Idealize.ShloMosaic.Lib.IdealHost

noncomputable section

open Idealize.ShloMosaic Idealize.ShloMosaic.ValueIdx
open scoped BigOperators

namespace Cert.TreeLevel

variable {R C n b : Nat}

/-- The array: `R` rows of `C` leaves. -/
abbrev A2 (R C : Nat) : Shape := ⟨2, ![R, C]⟩
/-- The same elements as rows × nodes × children × leaves under a child. -/
abbrev A4 (R n b : Nat) : Shape := ⟨4, ![R, n, 2, b]⟩
/-- Rows × nodes × children. -/
abbrev A3 (R n : Nat) : Shape := ⟨3, ![R, n, 2]⟩
/-- Rows × nodes. -/
abbrev AN (R n : Nat) : Shape := ⟨2, ![R, n]⟩
/-- Rows × nodes with a trailing unit axis. -/
abbrev AN1 (R n : Nat) : Shape := ⟨3, ![R, n, 1]⟩
/-- The scalar shape. -/
abbrev S0 : Shape := ⟨0, ![]⟩

/-! ## Indices with a coordinate put back -/

/-- A (row, node, child) index with leaf `k` put back on the last axis. -/
theorem lift_leaf (h : (A4 R n b).Reduces [3] (A3 R n)) (r : Fin R) (j : Fin n) (c : Fin 2)
    (k : Fin ((A4 R n b).size 3)) : h.lift (ix3 r j c) k = ix4 r j c (⟨k.val, k.isLt⟩ : Fin b) := by
  funext a; apply Fin.ext
  fin_cases a <;> rfl

/-- A (row, node) index with child `c` put back on the last axis. -/
theorem lift_child (h : (A3 R n).Reduces [2] (AN R n)) (r : Fin R) (j : Fin n)
    (c : Fin ((A3 R n).size 2)) : h.lift (ix2 r j) c = ix3 r j (⟨c.val, c.isLt⟩ : Fin 2) := by
  funext a; apply Fin.ext
  fin_cases a <;> rfl

/-! ## The mean over the leaves under a child -/

/-- The mean of `x` over the `b` leaves under child `c` of node `j` in row `r`: their sum over the divisor's value.
    The leaf `(r, j, c, k)` of the four-axis view is the array's element at the same row-major position. -/
def meanAt (w : BitVec 32) (h24 : (A2 R C).ShapeCasts (A4 R n b)) (x : FVec Ideal (A2 R C) .f32)
    (r : Fin R) (j : Fin n) (c : Fin 2) : Ideal .f32 :=
  Ideal.div (∑ k : Fin b, x (Shape.reshapeEquiv h24 (ix4 r j c k))) (Ideal.ofBits .f32 w)

/-- The vector unit's spelling of the mean: a shape cast, a sum over the last axis, a division by a splat. -/
def meanV (w : BitVec 32) (h24 : (A2 R C).ShapeCasts (A4 R n b)) (hr : (A4 R n b).Reduces [3] (A3 R n))
    (x : FVec Ideal (A2 R C) .f32) : FVec Ideal (A3 R n) .f32 :=
  divf (multiReduction .add [3] (A3 R n) (shapeCast (A4 R n b) x h24) 0x00000000#32 hr (.inl rfl) rfl)
    (broadcast (A3 R n) (Scalar.ofBits .f32 w))

theorem meanV_apply (w : BitVec 32) (h24 : (A2 R C).ShapeCasts (A4 R n b)) (hr : (A4 R n b).Reduces [3] (A3 R n))
    (x : FVec Ideal (A2 R C) .f32) (r : Fin R) (j : Fin n) (c : Fin 2) :
    meanV w h24 hr x (ix3 r j c) = meanAt w h24 x r j c := by
  unfold meanV meanAt
  rw [divf_apply]
  refine congrArg (fun s => Ideal.div s _) ?_
  refine (Ideal.multiReduction_add_single (shapeCast (A4 R n b) x h24) 0x00000000#32 hr (.inl rfl) rfl (ix3 r j c)).trans ?_
  refine Fintype.sum_equiv (Equiv.refl _) _ _ fun k => ?_
  rw [lift_leaf]
  rfl

/-- The host's spelling: a reshape, a `reduce` with an add body from the zero scalar, a division by a broadcast scalar. -/
def meanH (w : BitVec 32) (h24 : (A2 R C).ShapeCasts (A4 R n b)) (hr : (A4 R n b).ReducesTo [3] (A3 R n))
    (h0 : 0 < S0.numel) (hb : S0.BroadcastsInDim (A3 R n) ![])
    (x : FVec Ideal (A2 R C) .f32) : FVec Ideal (A3 R n) .f32 :=
  Host.divf (Host.reduceAdd (shapeCast (A4 R n b) x h24) (constant (F := Ideal) S0 .f32 0x00000000#32) hr h0)
    (broadcastInDim (A3 R n) ![] hb (constant (F := Ideal) S0 .f32 w))

theorem meanH_apply (w : BitVec 32) (h24 : (A2 R C).ShapeCasts (A4 R n b)) (hr : (A4 R n b).ReducesTo [3] (A3 R n))
    (hr' : (A4 R n b).Reduces [3] (A3 R n))
    (h0 : 0 < S0.numel) (hb : S0.BroadcastsInDim (A3 R n) ![])
    (x : FVec Ideal (A2 R C) .f32) (r : Fin R) (j : Fin n) (c : Fin 2) :
    meanH w h24 hr h0 hb x (ix3 r j c) = meanAt w h24 x r j c := by
  unfold meanH meanAt
  rw [hostDivf_apply, hostReduceAdd_apply, Ideal.hostReduceAdd_single hr hr', broadcastInDim_scalar_apply]
  show Ideal.div (Ideal.ofBits .f32 0x00000000#32 + _) (Ideal.ofBits .f32 w) = _
  rw [Ideal.ofBits_zero_f32, zero_add]
  refine congrArg (fun s => Ideal.div s _) ?_
  refine Fintype.sum_equiv (Equiv.refl _) _ _ fun k => ?_
  rw [lift_leaf]
  rfl

/-- The host's exponential at an index is the exact exponential of the element. -/
theorem hostExp_apply {s : Shape} {φ : FTy} (v : FVec Ideal s φ) (i : s.Idx) : Host.exp v i = Ideal.exp (v i) :=
  Ideal.hostUnary_exp_def (v i)

/-- The vector unit's exponential at an index likewise. -/
theorem exp_apply {s : Shape} {φ : FTy} (v : FVec Ideal s φ) (i : s.Idx) : exp v i = Ideal.exp (v i) :=
  Ideal.exp_def (v i)

/-! ## A value per node spread over the node's two children -/

/-- The vector unit spreads a (row, node) array over the children by a trailing unit axis and a broadcast: child `c` of
    node `j` reads the node's value. -/
theorem spreadV_apply {α : Type} (hc : (AN R n).ShapeCasts (AN1 R n)) (hb : (AN1 R n).Broadcasts (A3 R n))
    (v : (AN R n).Idx → α) (r : Fin R) (j : Fin n) (c : Fin 2) :
    broadcastTo (A3 R n) (shapeCast (AN1 R n) v hc) hb (ix3 r j c) = v (ix2 r j) := by
  have hr := r.isLt
  have hj := j.isLt
  refine (broadcastTo_apply _ hb (ix3 r j c) (ix3 r j (0 : Fin 1)) fun a => ?_).trans ?_
  · match a with
    | ⟨0, _⟩ => show r.val = if R = 1 then 0 else r.val; split_ifs <;> omega
    | ⟨1, _⟩ => show j.val = if n = 1 then 0 else j.val; split_ifs <;> omega
    | ⟨2, _⟩ => show (0 : ℕ) = if (1 : ℕ) = 1 then 0 else c.val; rfl
  · refine shapeCast_apply v hc (ix3 r j (0 : Fin 1)) (ix2 r j) ?_
    rw [Shape.rowMajor_val_two, Shape.rowMajor_val_three]
    show r.val * n + j.val = (r.val * n + j.val) * 1 + 0
    omega

/-- The host spreads it by two `broadcast_in_dim`s: the same reading. -/
theorem spreadH_apply {α : Type} (hb1 : (AN R n).BroadcastsInDim (AN1 R n) ![0, 1])
    (hb2 : (AN1 R n).BroadcastsInDim (A3 R n) ![0, 1, 2])
    (v : (AN R n).Idx → α) (r : Fin R) (j : Fin n) (c : Fin 2) :
    broadcastInDim (A3 R n) ![0, 1, 2] hb2 (broadcastInDim (AN1 R n) ![0, 1] hb1 v) (ix3 r j c) = v (ix2 r j) := by
  have hr := r.isLt
  have hj := j.isLt
  refine (broadcastInDim_apply _ hb2 _ (ix3 r j c) (ix3 r j (0 : Fin 1)) fun a => ?_).trans ?_
  · match a with
    | ⟨0, _⟩ => show r.val = if R = 1 then 0 else r.val; split_ifs <;> omega
    | ⟨1, _⟩ => show j.val = if n = 1 then 0 else j.val; split_ifs <;> omega
    | ⟨2, _⟩ => show (0 : ℕ) = if (1 : ℕ) = 1 then 0 else c.val; rfl
  · refine broadcastInDim_apply _ hb1 v (ix3 r j (0 : Fin 1)) (ix2 r j) fun a => ?_
    match a with
    | ⟨0, _⟩ => show r.val = if R = 1 then 0 else r.val; split_ifs <;> omega
    | ⟨1, _⟩ => show j.val = if n = 1 then 0 else j.val; split_ifs <;> omega

/-! ## The two-way softmax of a node's two means -/

/-- The word of minus infinity, the seed of a maximum. -/
abbrev negInf : Ideal .f32 := Ideal.ofBits .f32 0xFF800000#32

/-- The larger of a node's two values (and of the seed, twice: the reduction starts from it and jax takes the maximum
    with it once more). -/
def maxAt (μ : FVec Ideal (A3 R n) .f32) (r : Fin R) (j : Fin n) : Ideal .f32 :=
  max negInf (Finset.univ.fold max negInf fun c : Fin 2 => μ (ix3 r j c))

/-- The exponential of a child's value less the node's maximum. -/
def expAt (μ : FVec Ideal (A3 R n) .f32) (r : Fin R) (j : Fin n) (c : Fin 2) : Ideal .f32 :=
  Ideal.exp (μ (ix3 r j c) - maxAt μ r j)

/-- The child's probability: its exponential over the sum of the node's two. -/
def softAt (μ : FVec Ideal (A3 R n) .f32) (r : Fin R) (j : Fin n) (c : Fin 2) : Ideal .f32 :=
  Ideal.div (expAt μ r j c) (∑ c' : Fin 2, expAt μ r j c')

/-- The vector unit's spelling of the shifted exponentials. -/
def expV (hr : (A3 R n).Reduces [2] (AN R n)) (hc : (AN R n).ShapeCasts (AN1 R n)) (hb : (AN1 R n).Broadcasts (A3 R n))
    (μ : FVec Ideal (A3 R n) .f32) : FVec Ideal (A3 R n) .f32 :=
  exp (subf μ (broadcastTo (A3 R n) (shapeCast (AN1 R n)
    (maximumf (broadcast (AN R n) (Scalar.ofBits .f32 0xFF800000#32))
      (multiReduction .maximumf [2] (AN R n) μ 0xFF800000#32 hr (.inl rfl) rfl)) hc) hb))

/-- The vector unit's spelling of the softmax: the exponentials over their sum spread back over the children. -/
def softV (hr : (A3 R n).Reduces [2] (AN R n)) (hc : (AN R n).ShapeCasts (AN1 R n)) (hb : (AN1 R n).Broadcasts (A3 R n))
    (μ : FVec Ideal (A3 R n) .f32) : FVec Ideal (A3 R n) .f32 :=
  divf (expV hr hc hb μ) (broadcastTo (A3 R n) (shapeCast (AN1 R n)
    (multiReduction .add [2] (AN R n) (expV hr hc hb μ) 0x00000000#32 hr (.inl rfl) rfl) hc) hb)

theorem expV_apply (hr : (A3 R n).Reduces [2] (AN R n)) (hc : (AN R n).ShapeCasts (AN1 R n))
    (hb : (AN1 R n).Broadcasts (A3 R n)) (μ : FVec Ideal (A3 R n) .f32) (r : Fin R) (j : Fin n) (c : Fin 2) :
    expV hr hc hb μ (ix3 r j c) = expAt μ r j c := by
  unfold expV expAt maxAt
  show Ideal.exp (μ (ix3 r j c) - broadcastTo (A3 R n) (shapeCast (AN1 R n) _ hc) hb (ix3 r j c)) = _
  rw [spreadV_apply]
  show Ideal.exp (μ (ix3 r j c) - max negInf (multiReduction .maximumf [2] (AN R n) μ 0xFF800000#32 hr (.inl rfl) rfl (ix2 r j))) = _
  refine congrArg (fun s => Ideal.exp (μ (ix3 r j c) - max negInf s)) ?_
  refine (Ideal.multiReduction_maximumf_single μ 0xFF800000#32 hr (.inl rfl) rfl (ix2 r j)).trans ?_
  have e : (μ ∘ hr.lift (ix2 r j)) = fun c : Fin 2 => μ (ix3 r j c) :=
    funext fun c => congrArg μ (lift_child hr r j c)
  rw [e]
  rfl

theorem softV_apply (hr : (A3 R n).Reduces [2] (AN R n)) (hc : (AN R n).ShapeCasts (AN1 R n))
    (hb : (AN1 R n).Broadcasts (A3 R n)) (μ : FVec Ideal (A3 R n) .f32) (r : Fin R) (j : Fin n) (c : Fin 2) :
    softV hr hc hb μ (ix3 r j c) = softAt μ r j c := by
  unfold softV softAt
  rw [divf_apply, spreadV_apply, expV_apply]
  refine congrArg (fun s => Ideal.div _ s) ?_
  refine (Ideal.multiReduction_add_single (expV hr hc hb μ) 0x00000000#32 hr (.inl rfl) rfl (ix2 r j)).trans ?_
  refine Fintype.sum_equiv (Equiv.refl _) _ _ fun c' => ?_
  rw [lift_child]
  exact expV_apply hr hc hb μ r j _

/-- The host's spelling of the shifted exponentials. -/
def expH (hr : (A3 R n).ReducesTo [2] (AN R n)) (h0 : 0 < S0.numel) (hbs : S0.BroadcastsInDim (AN R n) ![])
    (hb1 : (AN R n).BroadcastsInDim (AN1 R n) ![0, 1]) (hb2 : (AN1 R n).BroadcastsInDim (A3 R n) ![0, 1, 2])
    (μ : FVec Ideal (A3 R n) .f32) : FVec Ideal (A3 R n) .f32 :=
  Host.exp (subf μ (broadcastInDim (A3 R n) ![0, 1, 2] hb2 (broadcastInDim (AN1 R n) ![0, 1] hb1
    (maximumf (broadcastInDim (AN R n) ![] hbs (constant (F := Ideal) S0 .f32 0xFF800000#32))
      (Host.reduce FloatOps.maximumf μ (constant (F := Ideal) S0 .f32 0xFF800000#32) hr h0)))))

/-- The host's spelling of the softmax. -/
def softH (hr : (A3 R n).ReducesTo [2] (AN R n)) (h0 : 0 < S0.numel) (hbs : S0.BroadcastsInDim (AN R n) ![])
    (hb1 : (AN R n).BroadcastsInDim (AN1 R n) ![0, 1]) (hb2 : (AN1 R n).BroadcastsInDim (A3 R n) ![0, 1, 2])
    (μ : FVec Ideal (A3 R n) .f32) : FVec Ideal (A3 R n) .f32 :=
  Host.divf (expH hr h0 hbs hb1 hb2 μ) (broadcastInDim (A3 R n) ![0, 1, 2] hb2 (broadcastInDim (AN1 R n) ![0, 1] hb1
    (Host.reduceAdd (expH hr h0 hbs hb1 hb2 μ) (constant (F := Ideal) S0 .f32 0x00000000#32) hr h0)))

theorem expH_apply (hr : (A3 R n).ReducesTo [2] (AN R n)) (hr' : (A3 R n).Reduces [2] (AN R n)) (h0 : 0 < S0.numel)
    (hbs : S0.BroadcastsInDim (AN R n) ![])
    (hb1 : (AN R n).BroadcastsInDim (AN1 R n) ![0, 1]) (hb2 : (AN1 R n).BroadcastsInDim (A3 R n) ![0, 1, 2])
    (μ : FVec Ideal (A3 R n) .f32) (r : Fin R) (j : Fin n) (c : Fin 2) :
    expH hr h0 hbs hb1 hb2 μ (ix3 r j c) = expAt μ r j c := by
  unfold expH expAt maxAt
  rw [hostExp_apply, subf_apply, spreadH_apply, maximumf_apply, broadcastInDim_scalar_apply, constant_apply,
    Host.reduce_eq_fold_single FloatOps.maximumf μ _ hr hr' h0 (ix2 r j), constant_apply]
  have e : (μ ∘ hr'.lift (ix2 r j)) = fun c : Fin 2 => μ (ix3 r j c) :=
    funext fun c => congrArg μ (lift_child hr' r j c)
  rw [e]
  rfl

theorem softH_apply (hr : (A3 R n).ReducesTo [2] (AN R n)) (hr' : (A3 R n).Reduces [2] (AN R n)) (h0 : 0 < S0.numel)
    (hbs : S0.BroadcastsInDim (AN R n) ![])
    (hb1 : (AN R n).BroadcastsInDim (AN1 R n) ![0, 1]) (hb2 : (AN1 R n).BroadcastsInDim (A3 R n) ![0, 1, 2])
    (μ : FVec Ideal (A3 R n) .f32) (r : Fin R) (j : Fin n) (c : Fin 2) :
    softH hr h0 hbs hb1 hb2 μ (ix3 r j c) = softAt μ r j c := by
  unfold softH softAt
  rw [hostDivf_apply, spreadH_apply, expH_apply hr hr', hostReduceAdd_apply, Ideal.hostReduceAdd_single hr hr']
  show Ideal.div _ (Ideal.ofBits .f32 0x00000000#32 + _) = _
  rw [Ideal.ofBits_zero_f32, zero_add]
  refine congrArg (fun s => Ideal.div _ s) ?_
  refine Fintype.sum_equiv (Equiv.refl _) _ _ fun c' => ?_
  rw [lift_child]
  exact expH_apply hr hr' h0 hbs hb1 hb2 μ r j _

/-! ## The mean and the softmax as arrays -/

/-- The means as a (row, node, child) array. -/
def meanC (w : BitVec 32) (h24 : (A2 R C).ShapeCasts (A4 R n b)) (x : FVec Ideal (A2 R C) .f32) :
    FVec Ideal (A3 R n) .f32 :=
  fun q => meanAt w h24 x (q 0) (q 1) (q 2)

/-- The probabilities as a (row, node, child) array. -/
def softC (μ : FVec Ideal (A3 R n) .f32) : FVec Ideal (A3 R n) .f32 :=
  fun q => softAt μ (q 0) (q 1) (q 2)

theorem meanV_eq (w : BitVec 32) (h24 : (A2 R C).ShapeCasts (A4 R n b)) (hr : (A4 R n b).Reduces [3] (A3 R n))
    (x : FVec Ideal (A2 R C) .f32) : meanV w h24 hr x = meanC w h24 x := by
  funext q
  obtain ⟨r, j, c, rfl⟩ : ∃ (r : Fin R) (j : Fin n) (c : Fin 2), q = ix3 r j c := ⟨q 0, q 1, q 2, eq_ix3 q⟩
  exact meanV_apply w h24 hr x r j c

theorem meanH_eq (w : BitVec 32) (h24 : (A2 R C).ShapeCasts (A4 R n b)) (hr : (A4 R n b).ReducesTo [3] (A3 R n))
    (hr' : (A4 R n b).Reduces [3] (A3 R n)) (h0 : 0 < S0.numel) (hb : S0.BroadcastsInDim (A3 R n) ![])
    (x : FVec Ideal (A2 R C) .f32) : meanH w h24 hr h0 hb x = meanC w h24 x := by
  funext q
  obtain ⟨r, j, c, rfl⟩ : ∃ (r : Fin R) (j : Fin n) (c : Fin 2), q = ix3 r j c := ⟨q 0, q 1, q 2, eq_ix3 q⟩
  exact meanH_apply w h24 hr hr' h0 hb x r j c

theorem softV_eq (hr : (A3 R n).Reduces [2] (AN R n)) (hc : (AN R n).ShapeCasts (AN1 R n))
    (hb : (AN1 R n).Broadcasts (A3 R n)) (μ : FVec Ideal (A3 R n) .f32) : softV hr hc hb μ = softC μ := by
  funext q
  obtain ⟨r, j, c, rfl⟩ : ∃ (r : Fin R) (j : Fin n) (c : Fin 2), q = ix3 r j c := ⟨q 0, q 1, q 2, eq_ix3 q⟩
  exact softV_apply hr hc hb μ r j c

theorem softH_eq (hr : (A3 R n).ReducesTo [2] (AN R n)) (hr' : (A3 R n).Reduces [2] (AN R n)) (h0 : 0 < S0.numel)
    (hbs : S0.BroadcastsInDim (AN R n) ![])
    (hb1 : (AN R n).BroadcastsInDim (AN1 R n) ![0, 1]) (hb2 : (AN1 R n).BroadcastsInDim (A3 R n) ![0, 1, 2])
    (μ : FVec Ideal (A3 R n) .f32) : softH hr h0 hbs hb1 hb2 μ = softC μ := by
  funext q
  obtain ⟨r, j, c, rfl⟩ : ∃ (r : Fin R) (j : Fin n) (c : Fin 2), q = ix3 r j c := ⟨q 0, q 1, q 2, eq_ix3 q⟩
  exact softH_apply hr hr' h0 hbs hb1 hb2 μ r j c

/-! ## A value per child spread over the leaves under it -/

/-- The vector unit spreads a (row, node, child) array over the leaves by a trailing unit axis and a broadcast. -/
theorem leavesV_apply {α : Type} (hc : (A3 R n).ShapeCasts (A4 R n 1)) (hb : (A4 R n 1).Broadcasts (A4 R n b))
    (p : (A3 R n).Idx → α) (r : Fin R) (j : Fin n) (c : Fin 2) (k : Fin b) :
    broadcastTo (A4 R n b) (shapeCast (A4 R n 1) p hc) hb (ix4 r j c k) = p (ix3 r j c) := by
  have hr := r.isLt
  have hj := j.isLt
  refine (broadcastTo_apply _ hb (ix4 r j c k) (ix4 r j c (0 : Fin 1)) fun a => ?_).trans ?_
  · match a with
    | ⟨0, _⟩ => show r.val = if R = 1 then 0 else r.val; split_ifs <;> omega
    | ⟨1, _⟩ => show j.val = if n = 1 then 0 else j.val; split_ifs <;> omega
    | ⟨2, _⟩ => show c.val = if (2 : ℕ) = 1 then 0 else c.val; rfl
    | ⟨3, _⟩ => show (0 : ℕ) = if (1 : ℕ) = 1 then 0 else k.val; rfl
  · refine shapeCast_apply p hc (ix4 r j c (0 : Fin 1)) (ix3 r j c) ?_
    rw [Shape.rowMajor_val_three, Shape.rowMajor_val_four]
    show (r.val * n + j.val) * 2 + c.val = ((r.val * n + j.val) * 2 + c.val) * 1 + 0
    omega

/-- With one leaf under a child the trailing unit axis is already the leaf axis. -/
theorem leavesV1_apply {α : Type} (hc : (A3 R n).ShapeCasts (A4 R n 1))
    (p : (A3 R n).Idx → α) (r : Fin R) (j : Fin n) (c : Fin 2) (k : Fin 1) :
    shapeCast (A4 R n 1) p hc (ix4 r j c k) = p (ix3 r j c) := by
  have hk := k.isLt
  refine shapeCast_apply p hc (ix4 r j c k) (ix3 r j c) ?_
  rw [Shape.rowMajor_val_three, Shape.rowMajor_val_four]
  show (r.val * n + j.val) * 2 + c.val = ((r.val * n + j.val) * 2 + c.val) * 1 + k.val
  omega

/-- The host spreads it by two `broadcast_in_dim`s. -/
theorem leavesH_apply {α : Type} (hb3 : (A3 R n).BroadcastsInDim (A4 R n 1) ![0, 1, 2])
    (hb4 : (A4 R n 1).BroadcastsInDim (A4 R n b) ![0, 1, 2, 3])
    (p : (A3 R n).Idx → α) (r : Fin R) (j : Fin n) (c : Fin 2) (k : Fin b) :
    broadcastInDim (A4 R n b) ![0, 1, 2, 3] hb4 (broadcastInDim (A4 R n 1) ![0, 1, 2] hb3 p) (ix4 r j c k) = p (ix3 r j c) := by
  have hr := r.isLt
  have hj := j.isLt
  refine (broadcastInDim_apply _ hb4 _ (ix4 r j c k) (ix4 r j c (0 : Fin 1)) fun a => ?_).trans ?_
  · match a with
    | ⟨0, _⟩ => show r.val = if R = 1 then 0 else r.val; split_ifs <;> omega
    | ⟨1, _⟩ => show j.val = if n = 1 then 0 else j.val; split_ifs <;> omega
    | ⟨2, _⟩ => show c.val = if (2 : ℕ) = 1 then 0 else c.val; rfl
    | ⟨3, _⟩ => show (0 : ℕ) = if (1 : ℕ) = 1 then 0 else k.val; rfl
  · refine broadcastInDim_apply _ hb3 p (ix4 r j c (0 : Fin 1)) (ix3 r j c) fun a => ?_
    match a with
    | ⟨0, _⟩ => show r.val = if R = 1 then 0 else r.val; split_ifs <;> omega
    | ⟨1, _⟩ => show j.val = if n = 1 then 0 else j.val; split_ifs <;> omega
    | ⟨2, _⟩ => show c.val = if (2 : ℕ) = 1 then 0 else c.val; rfl

/-- With one leaf under a child, one `broadcast_in_dim`. -/
theorem leavesH1_apply {α : Type} (hb3 : (A3 R n).BroadcastsInDim (A4 R n 1) ![0, 1, 2])
    (p : (A3 R n).Idx → α) (r : Fin R) (j : Fin n) (c : Fin 2) (k : Fin 1) :
    broadcastInDim (A4 R n 1) ![0, 1, 2] hb3 p (ix4 r j c k) = p (ix3 r j c) := by
  have hr := r.isLt
  have hj := j.isLt
  refine broadcastInDim_apply _ hb3 p (ix4 r j c k) (ix3 r j c) fun a => ?_
  match a with
  | ⟨0, _⟩ => show r.val = if R = 1 then 0 else r.val; split_ifs <;> omega
  | ⟨1, _⟩ => show j.val = if n = 1 then 0 else j.val; split_ifs <;> omega
  | ⟨2, _⟩ => show c.val = if (2 : ℕ) = 1 then 0 else c.val; rfl

/-! ## Scaling the running array by the probabilities -/

/-- A leaf's (row, node, child): its index in the four-axis view without the leaf coordinate. -/
def dropLeaf (i : (A4 R n b).Idx) : (A3 R n).Idx := ix3 (i 0) (i 1) (i 2)

/-- Every element of the running array times the probability of the child its leaf sits under; the leaf's place
    in the tree is read through the row-major bijection between the array and its four-axis view. -/
def scaleAt (h42 : (A4 R n b).ShapeCasts (A2 R C)) (p : FVec Ideal (A3 R n) .f32) (cp : FVec Ideal (A2 R C) .f32) :
    FVec Ideal (A2 R C) .f32 :=
  fun i => cp i * p (dropLeaf (Shape.reshapeEquiv h42 i))

/-- The vector unit's spelling of the scaling. -/
def scaleV (h24 : (A2 R C).ShapeCasts (A4 R n b)) (h42 : (A4 R n b).ShapeCasts (A2 R C))
    (hc : (A3 R n).ShapeCasts (A4 R n 1)) (hb : (A4 R n 1).Broadcasts (A4 R n b))
    (p : FVec Ideal (A3 R n) .f32) (cp : FVec Ideal (A2 R C) .f32) : FVec Ideal (A2 R C) .f32 :=
  shapeCast (A2 R C) (mulf (shapeCast (A4 R n b) cp h24) (broadcastTo (A4 R n b) (shapeCast (A4 R n 1) p hc) hb)) h42

/-- The same with one leaf under a child (no broadcast). -/
def scaleV1 (h24 : (A2 R C).ShapeCasts (A4 R n 1)) (h42 : (A4 R n 1).ShapeCasts (A2 R C))
    (hc : (A3 R n).ShapeCasts (A4 R n 1))
    (p : FVec Ideal (A3 R n) .f32) (cp : FVec Ideal (A2 R C) .f32) : FVec Ideal (A2 R C) .f32 :=
  shapeCast (A2 R C) (mulf (shapeCast (A4 R n 1) cp h24) (shapeCast (A4 R n 1) p hc)) h42

/-- The host's spelling of the scaling. -/
def scaleH (h24 : (A2 R C).ShapeCasts (A4 R n b)) (h42 : (A4 R n b).ShapeCasts (A2 R C))
    (hb3 : (A3 R n).BroadcastsInDim (A4 R n 1) ![0, 1, 2]) (hb4 : (A4 R n 1).BroadcastsInDim (A4 R n b) ![0, 1, 2, 3])
    (p : FVec Ideal (A3 R n) .f32) (cp : FVec Ideal (A2 R C) .f32) : FVec Ideal (A2 R C) .f32 :=
  shapeCast (A2 R C) (mulf (shapeCast (A4 R n b) cp h24)
    (broadcastInDim (A4 R n b) ![0, 1, 2, 3] hb4 (broadcastInDim (A4 R n 1) ![0, 1, 2] hb3 p))) h42

/-- The same with one leaf under a child. -/
def scaleH1 (h24 : (A2 R C).ShapeCasts (A4 R n 1)) (h42 : (A4 R n 1).ShapeCasts (A2 R C))
    (hb3 : (A3 R n).BroadcastsInDim (A4 R n 1) ![0, 1, 2])
    (p : FVec Ideal (A3 R n) .f32) (cp : FVec Ideal (A2 R C) .f32) : FVec Ideal (A2 R C) .f32 :=
  shapeCast (A2 R C) (mulf (shapeCast (A4 R n 1) cp h24) (broadcastInDim (A4 R n 1) ![0, 1, 2] hb3 p)) h42

/-- All four spellings: the shape cast there and back is the identity on the running array, and the spread
    probability is read at the leaf's (row, node, child). -/
theorem scale_of_spread (h24 : (A2 R C).ShapeCasts (A4 R n b)) (h42 : (A4 R n b).ShapeCasts (A2 R C))
    (p : FVec Ideal (A3 R n) .f32) (cp : FVec Ideal (A2 R C) .f32) (P : FVec Ideal (A4 R n b) .f32)
    (hP : ∀ (r : Fin R) (j : Fin n) (c : Fin 2) (k : Fin b), P (ix4 r j c k) = p (ix3 r j c)) :
    shapeCast (A2 R C) (mulf (shapeCast (A4 R n b) cp h24) P) h42 = scaleAt h42 p cp := by
  funext i
  have e1 : shapeCast (A4 R n b) cp h24 (Shape.reshapeEquiv h42 i) = cp i :=
    congrFun (shapeCast_shapeCast cp h24 h42) i
  show mulf (shapeCast (A4 R n b) cp h24) P (Shape.reshapeEquiv h42 i) = cp i * p (dropLeaf (Shape.reshapeEquiv h42 i))
  rw [mulf_apply, e1]
  generalize Shape.reshapeEquiv h42 i = i4
  obtain ⟨r, j, c, k, rfl⟩ : ∃ (r : Fin R) (j : Fin n) (c : Fin 2) (k : Fin b), i4 = ix4 r j c k :=
    ⟨i4 0, i4 1, i4 2, i4 3, eq_ix4 i4⟩
  rw [hP]
  rfl

theorem scaleV_eq (h24 : (A2 R C).ShapeCasts (A4 R n b)) (h42 : (A4 R n b).ShapeCasts (A2 R C))
    (hc : (A3 R n).ShapeCasts (A4 R n 1)) (hb : (A4 R n 1).Broadcasts (A4 R n b))
    (p : FVec Ideal (A3 R n) .f32) (cp : FVec Ideal (A2 R C) .f32) :
    scaleV h24 h42 hc hb p cp = scaleAt h42 p cp :=
  scale_of_spread h24 h42 p cp _ (leavesV_apply hc hb p)

theorem scaleV1_eq (h24 : (A2 R C).ShapeCasts (A4 R n 1)) (h42 : (A4 R n 1).ShapeCasts (A2 R C))
    (hc : (A3 R n).ShapeCasts (A4 R n 1))
    (p : FVec Ideal (A3 R n) .f32) (cp : FVec Ideal (A2 R C) .f32) :
    scaleV1 h24 h42 hc p cp = scaleAt h42 p cp :=
  scale_of_spread h24 h42 p cp _ (leavesV1_apply hc p)

theorem scaleH_eq (h24 : (A2 R C).ShapeCasts (A4 R n b)) (h42 : (A4 R n b).ShapeCasts (A2 R C))
    (hb3 : (A3 R n).BroadcastsInDim (A4 R n 1) ![0, 1, 2]) (hb4 : (A4 R n 1).BroadcastsInDim (A4 R n b) ![0, 1, 2, 3])
    (p : FVec Ideal (A3 R n) .f32) (cp : FVec Ideal (A2 R C) .f32) :
    scaleH h24 h42 hb3 hb4 p cp = scaleAt h42 p cp :=
  scale_of_spread h24 h42 p cp _ (leavesH_apply hb3 hb4 p)

theorem scaleH1_eq (h24 : (A2 R C).ShapeCasts (A4 R n 1)) (h42 : (A4 R n 1).ShapeCasts (A2 R C))
    (hb3 : (A3 R n).BroadcastsInDim (A4 R n 1) ![0, 1, 2])
    (p : FVec Ideal (A3 R n) .f32) (cp : FVec Ideal (A2 R C) .f32) :
    scaleH1 h24 h42 hb3 p cp = scaleAt h42 p cp :=
  scale_of_spread h24 h42 p cp _ (leavesH1_apply hb3 p)

/-! ## One level -/

/-- One level of the tree: the running array scaled by the softmax of the children's means. -/
def level (w : BitVec 32) (h24 : (A2 R C).ShapeCasts (A4 R n b)) (h42 : (A4 R n b).ShapeCasts (A2 R C))
    (x cp : FVec Ideal (A2 R C) .f32) : FVec Ideal (A2 R C) .f32 :=
  scaleAt h42 (softC (meanC w h24 x)) cp

/-! ## The two spellings of a whole level -/

/-- The host's fact about a reduction gives the vector unit's when the result has an axis. -/
theorem reduces_of_reducesTo {s t : Shape} {axes : List (Fin s.rank)} (h : s.ReducesTo axes t) (ht : 0 < t.rank) :
    s.Reduces axes t :=
  let ⟨h1, h2⟩ := h
  ⟨h1, ht, h2⟩

/-- The vector unit's level: mean, softmax, scaling. -/
def levelV (w : BitVec 32) (h24 : (A2 R C).ShapeCasts (A4 R n b)) (h42 : (A4 R n b).ShapeCasts (A2 R C))
    (hr3 : (A4 R n b).Reduces [3] (A3 R n)) (hr2 : (A3 R n).Reduces [2] (AN R n))
    (hc1 : (AN R n).ShapeCasts (AN1 R n)) (hb1 : (AN1 R n).Broadcasts (A3 R n))
    (hc2 : (A3 R n).ShapeCasts (A4 R n 1)) (hb2 : (A4 R n 1).Broadcasts (A4 R n b))
    (x cp : FVec Ideal (A2 R C) .f32) : FVec Ideal (A2 R C) .f32 :=
  scaleV h24 h42 hc2 hb2 (softV hr2 hc1 hb1 (meanV w h24 hr3 x)) cp

theorem levelV_eq (w : BitVec 32) (h24 : (A2 R C).ShapeCasts (A4 R n b)) (h42 : (A4 R n b).ShapeCasts (A2 R C))
    (hr3 : (A4 R n b).Reduces [3] (A3 R n)) (hr2 : (A3 R n).Reduces [2] (AN R n))
    (hc1 : (AN R n).ShapeCasts (AN1 R n)) (hb1 : (AN1 R n).Broadcasts (A3 R n))
    (hc2 : (A3 R n).ShapeCasts (A4 R n 1)) (hb2 : (A4 R n 1).Broadcasts (A4 R n b))
    (x cp : FVec Ideal (A2 R C) .f32) :
    levelV w h24 h42 hr3 hr2 hc1 hb1 hc2 hb2 x cp = level w h24 h42 x cp := by
  unfold levelV level
  rw [meanV_eq, softV_eq, scaleV_eq]

/-- The vector unit's last level (one leaf under a child). -/
def levelV1 (w : BitVec 32) (h24 : (A2 R C).ShapeCasts (A4 R n 1)) (h42 : (A4 R n 1).ShapeCasts (A2 R C))
    (hr3 : (A4 R n 1).Reduces [3] (A3 R n)) (hr2 : (A3 R n).Reduces [2] (AN R n))
    (hc1 : (AN R n).ShapeCasts (AN1 R n)) (hb1 : (AN1 R n).Broadcasts (A3 R n))
    (hc2 : (A3 R n).ShapeCasts (A4 R n 1))
    (x cp : FVec Ideal (A2 R C) .f32) : FVec Ideal (A2 R C) .f32 :=
  scaleV1 h24 h42 hc2 (softV hr2 hc1 hb1 (meanV w h24 hr3 x)) cp

theorem levelV1_eq (w : BitVec 32) (h24 : (A2 R C).ShapeCasts (A4 R n 1)) (h42 : (A4 R n 1).ShapeCasts (A2 R C))
    (hr3 : (A4 R n 1).Reduces [3] (A3 R n)) (hr2 : (A3 R n).Reduces [2] (AN R n))
    (hc1 : (AN R n).ShapeCasts (AN1 R n)) (hb1 : (AN1 R n).Broadcasts (A3 R n))
    (hc2 : (A3 R n).ShapeCasts (A4 R n 1))
    (x cp : FVec Ideal (A2 R C) .f32) :
    levelV1 w h24 h42 hr3 hr2 hc1 hb1 hc2 x cp = level w h24 h42 x cp := by
  unfold levelV1 level
  rw [meanV_eq, softV_eq, scaleV1_eq]

/-- The host's level. -/
def levelH (w : BitVec 32) (h24 : (A2 R C).ShapeCasts (A4 R n b)) (h42 : (A4 R n b).ShapeCasts (A2 R C))
    (hr3 : (A4 R n b).ReducesTo [3] (A3 R n)) (hr2 : (A3 R n).ReducesTo [2] (AN R n)) (h0 : 0 < S0.numel)
    (hbs3 : S0.BroadcastsInDim (A3 R n) ![]) (hbs : S0.BroadcastsInDim (AN R n) ![])
    (hb1 : (AN R n).BroadcastsInDim (AN1 R n) ![0, 1]) (hb2 : (AN1 R n).BroadcastsInDim (A3 R n) ![0, 1, 2])
    (hb3 : (A3 R n).BroadcastsInDim (A4 R n 1) ![0, 1, 2]) (hb4 : (A4 R n 1).BroadcastsInDim (A4 R n b) ![0, 1, 2, 3])
    (x cp : FVec Ideal (A2 R C) .f32) : FVec Ideal (A2 R C) .f32 :=
  scaleH h24 h42 hb3 hb4 (softH hr2 h0 hbs hb1 hb2 (meanH w h24 hr3 h0 hbs3 x)) cp

theorem levelH_eq (w : BitVec 32) (h24 : (A2 R C).ShapeCasts (A4 R n b)) (h42 : (A4 R n b).ShapeCasts (A2 R C))
    (hr3 : (A4 R n b).ReducesTo [3] (A3 R n)) (hr2 : (A3 R n).ReducesTo [2] (AN R n)) (h0 : 0 < S0.numel)
    (hbs3 : S0.BroadcastsInDim (A3 R n) ![]) (hbs : S0.BroadcastsInDim (AN R n) ![])
    (hb1 : (AN R n).BroadcastsInDim (AN1 R n) ![0, 1]) (hb2 : (AN1 R n).BroadcastsInDim (A3 R n) ![0, 1, 2])
    (hb3 : (A3 R n).BroadcastsInDim (A4 R n 1) ![0, 1, 2]) (hb4 : (A4 R n 1).BroadcastsInDim (A4 R n b) ![0, 1, 2, 3])
    (x cp : FVec Ideal (A2 R C) .f32) :
    levelH w h24 h42 hr3 hr2 h0 hbs3 hbs hb1 hb2 hb3 hb4 x cp = level w h24 h42 x cp := by
  unfold levelH level
  rw [meanH_eq w h24 hr3 (reduces_of_reducesTo hr3 (Nat.succ_pos 2)), softH_eq hr2 (reduces_of_reducesTo hr2 (Nat.succ_pos 1)),
    scaleH_eq]

/-- The host's last level. -/
def levelH1 (w : BitVec 32) (h24 : (A2 R C).ShapeCasts (A4 R n 1)) (h42 : (A4 R n 1).ShapeCasts (A2 R C))
    (hr3 : (A4 R n 1).ReducesTo [3] (A3 R n)) (hr2 : (A3 R n).ReducesTo [2] (AN R n)) (h0 : 0 < S0.numel)
    (hbs3 : S0.BroadcastsInDim (A3 R n) ![]) (hbs : S0.BroadcastsInDim (AN R n) ![])
    (hb1 : (AN R n).BroadcastsInDim (AN1 R n) ![0, 1]) (hb2 : (AN1 R n).BroadcastsInDim (A3 R n) ![0, 1, 2])
    (hb3 : (A3 R n).BroadcastsInDim (A4 R n 1) ![0, 1, 2])
    (x cp : FVec Ideal (A2 R C) .f32) : FVec Ideal (A2 R C) .f32 :=
  scaleH1 h24 h42 hb3 (softH hr2 h0 hbs hb1 hb2 (meanH w h24 hr3 h0 hbs3 x)) cp

theorem levelH1_eq (w : BitVec 32) (h24 : (A2 R C).ShapeCasts (A4 R n 1)) (h42 : (A4 R n 1).ShapeCasts (A2 R C))
    (hr3 : (A4 R n 1).ReducesTo [3] (A3 R n)) (hr2 : (A3 R n).ReducesTo [2] (AN R n)) (h0 : 0 < S0.numel)
    (hbs3 : S0.BroadcastsInDim (A3 R n) ![]) (hbs : S0.BroadcastsInDim (AN R n) ![])
    (hb1 : (AN R n).BroadcastsInDim (AN1 R n) ![0, 1]) (hb2 : (AN1 R n).BroadcastsInDim (A3 R n) ![0, 1, 2])
    (hb3 : (A3 R n).BroadcastsInDim (A4 R n 1) ![0, 1, 2])
    (x cp : FVec Ideal (A2 R C) .f32) :
    levelH1 w h24 h42 hr3 hr2 h0 hbs3 hbs hb1 hb2 hb3 x cp = level w h24 h42 x cp := by
  unfold levelH1 level
  rw [meanH_eq w h24 hr3 (reduces_of_reducesTo hr3 (Nat.succ_pos 2)), softH_eq hr2 (reduces_of_reducesTo hr2 (Nat.succ_pos 1)),
    scaleH1_eq]

/-! ## A block of rows inside a taller array

A level works row by row: a row's result reads only that row.  So a level of a taller array, read at a row of a block
of `R` rows that starts at row `o`, is the level of the block alone.  The one arithmetic fact is that the row-major
bijection between the array and its four-axis view moves with the row: both views put a row's `C = n * 2 * b`
elements at `C` consecutive positions. -/

variable {R' : Nat}

/-- Row `r` of the block, as a row of the taller array. -/
def shiftRow (o : Nat) (ho : o + R ≤ R') (r : Fin R) : Fin R' := ⟨o + r.val, by have := r.isLt; omega⟩

/-- An index of the block, as an index of the taller array. -/
def shift2 (o : Nat) (ho : o + R ≤ R') (i : (A2 R C).Idx) : (A2 R' C).Idx := ix2 (shiftRow o ho (i 0)) (i 1)

/-- The same in the four-axis view. -/
def shift4 (o : Nat) (ho : o + R ≤ R') (i : (A4 R n b).Idx) : (A4 R' n b).Idx :=
  ix4 (shiftRow o ho (i 0)) (i 1) (i 2) (i 3)

/-- From the four-axis view to the array, the bijection commutes with the shift. -/
theorem reshape_shift4 (hC : n * 2 * b = C) (o : Nat) (ho : o + R ≤ R')
    (h24 : (A2 R C).ShapeCasts (A4 R n b)) (h24' : (A2 R' C).ShapeCasts (A4 R' n b)) (i : (A4 R n b).Idx) :
    Shape.reshapeEquiv h24' (shift4 o ho i) = shift2 o ho (Shape.reshapeEquiv h24 i) := by
  have h := Shape.rowMajor_reshapeEquiv h24 i
  rw [Shape.rowMajor_val_two, Shape.rowMajor_val_four] at h
  refine Shape.reshapeEquiv_eq_of_rowMajor h24' ?_
  rw [Shape.rowMajor_val_two, Shape.rowMajor_val_four]
  change ((Shape.reshapeEquiv h24 i) 0).val * C + ((Shape.reshapeEquiv h24 i) 1).val
    = (((i 0).val * n + (i 1).val) * 2 + (i 2).val) * b + (i 3).val at h
  show (o + ((Shape.reshapeEquiv h24 i) 0).val) * C + ((Shape.reshapeEquiv h24 i) 1).val
    = (((o + (i 0).val) * n + (i 1).val) * 2 + (i 2).val) * b + (i 3).val
  rw [Nat.add_mul, Nat.add_assoc, h, ← hC]
  ring

/-- From the array to the four-axis view likewise. -/
theorem reshape_shift2 (hC : n * 2 * b = C) (o : Nat) (ho : o + R ≤ R')
    (h42 : (A4 R n b).ShapeCasts (A2 R C)) (h42' : (A4 R' n b).ShapeCasts (A2 R' C)) (i : (A2 R C).Idx) :
    Shape.reshapeEquiv h42' (shift2 o ho i) = shift4 o ho (Shape.reshapeEquiv h42 i) := by
  have h := Shape.rowMajor_reshapeEquiv h42 i
  rw [Shape.rowMajor_val_two, Shape.rowMajor_val_four] at h
  refine Shape.reshapeEquiv_eq_of_rowMajor h42' ?_
  rw [Shape.rowMajor_val_two, Shape.rowMajor_val_four]
  change ((((Shape.reshapeEquiv h42 i) 0).val * n + ((Shape.reshapeEquiv h42 i) 1).val) * 2
      + ((Shape.reshapeEquiv h42 i) 2).val) * b + ((Shape.reshapeEquiv h42 i) 3).val
    = (i 0).val * C + (i 1).val at h
  show (((o + ((Shape.reshapeEquiv h42 i) 0).val) * n + ((Shape.reshapeEquiv h42 i) 1).val) * 2
      + ((Shape.reshapeEquiv h42 i) 2).val) * b + ((Shape.reshapeEquiv h42 i) 3).val
    = (o + (i 0).val) * C + (i 1).val
  have e : (o + (i 0).val) * C + (i 1).val = o * C + ((i 0).val * C + (i 1).val) := by ring
  have e' : o * C = o * (n * 2 * b) := by rw [hC]
  rw [e, ← h, e']
  ring

/-- The probabilities of a node read only the node's two values. -/
theorem softAt_congr {μ' : FVec Ideal (A3 R' n) .f32} {μ : FVec Ideal (A3 R n) .f32} {r' : Fin R'} {r : Fin R} {j : Fin n}
    (h : ∀ c : Fin 2, μ' (ix3 r' j c) = μ (ix3 r j c)) (c : Fin 2) : softAt μ' r' j c = softAt μ r j c := by
  unfold softAt expAt maxAt
  simp only [h]

/-- A LEVEL IS LOCAL TO THE ROW: on arrays that agree on a block of rows, a level of the taller array read in the
    block is the level of the block. -/
theorem level_shift (hC : n * 2 * b = C) (w : BitVec 32) (o : Nat) (ho : o + R ≤ R')
    (h24 : (A2 R C).ShapeCasts (A4 R n b)) (h42 : (A4 R n b).ShapeCasts (A2 R C))
    (h24' : (A2 R' C).ShapeCasts (A4 R' n b)) (h42' : (A4 R' n b).ShapeCasts (A2 R' C))
    (x' cp' : FVec Ideal (A2 R' C) .f32) (x cp : FVec Ideal (A2 R C) .f32)
    (hx : ∀ i, x' (shift2 o ho i) = x i) (hcp : ∀ i, cp' (shift2 o ho i) = cp i) (i : (A2 R C).Idx) :
    level w h24' h42' x' cp' (shift2 o ho i) = level w h24 h42 x cp i := by
  unfold level scaleAt
  rw [hcp, reshape_shift2 hC o ho h42 h42']
  refine congrArg (fun s => cp i * s) ?_
  generalize Shape.reshapeEquiv h42 i = i4
  obtain ⟨r, j, c, k, rfl⟩ : ∃ (r : Fin R) (j : Fin n) (c : Fin 2) (k : Fin b), i4 = ix4 r j c k :=
    ⟨i4 0, i4 1, i4 2, i4 3, eq_ix4 i4⟩
  show softAt (meanC w h24' x') (shiftRow o ho r) j c = softAt (meanC w h24 x) r j c
  refine softAt_congr (fun c' => ?_) c
  show meanAt w h24' x' (shiftRow o ho r) j c' = meanAt w h24 x r j c'
  unfold meanAt
  refine congrArg (fun s => Ideal.div s _) (Finset.sum_congr rfl fun k' _ => ?_)
  rw [show ix4 (shiftRow o ho r) j c' k' = shift4 o ho (ix4 r j c' k') from rfl, reshape_shift4 hC o ho h24 h24', hx]

/-! ## The shape facts, for any number of rows -/

theorem casts24 (hC : n * 2 * b = C) : (A2 R C).ShapeCasts (A4 R n b) := by
  show (A4 R n b).numel = (A2 R C).numel
  simp only [Shape.numel, Fin.prod_univ_succ, Fin.prod_univ_zero]
  show R * (n * (2 * (b * 1))) = R * (C * 1)
  rw [← hC]; ring

theorem casts42 (hC : n * 2 * b = C) : (A4 R n b).ShapeCasts (A2 R C) := (casts24 hC).symm

end Cert.TreeLevel

end
-- ==== Proof.TreeSpec.lean ====
/-
  The soft decision tree over 1024 leaves, ten levels deep, on an array of `R` rows: the running array starts at one
  and is scaled, level after level, by the two-way softmax of the means of `x` over the two halves of each node's
  leaves — nodes of 1024, 512, …, 2 leaves, the divisors 512, 256, …, 1 as their exact binary words.  It is one function
  of the array, row by row: read in a block of rows of a taller array, it is the tree of the block (`tree_shift`).
-/
import proofs.«122107_j78108275245686_1_alg».proof.Proof.LibTreeLevel

noncomputable section

open Idealize.ShloMosaic Idealize.ShloMosaic.ValueIdx

namespace Cert.Tree

open Cert.TreeLevel

/-- The running array at the root: one everywhere. -/
def ones (R : Nat) : FVec Ideal (A2 R 1024) .f32 := fun _ => Ideal.ofBits .f32 0x3F800000#32

/-- One level on `n` nodes with `b` leaves under a child, `n * 2 * b = 1024`, the divisor the word `w`. -/
abbrev lvl (R n b : Nat) (w : BitVec 32) (h : n * 2 * b = 1024) (x cp : FVec Ideal (A2 R 1024) .f32) :
    FVec Ideal (A2 R 1024) .f32 :=
  level w (casts24 h) (casts42 h) x cp

/-- The ten levels, root first. -/
def tree (R : Nat) (x : FVec Ideal (A2 R 1024) .f32) : FVec Ideal (A2 R 1024) .f32 :=
  (lvl R 512 1 0x3F800000#32 (by norm_num) x
    (lvl R 256 2 0x40000000#32 (by norm_num) x
    (lvl R 128 4 0x40800000#32 (by norm_num) x
    (lvl R 64 8 0x41000000#32 (by norm_num) x
    (lvl R 32 16 0x41800000#32 (by norm_num) x
    (lvl R 16 32 0x42000000#32 (by norm_num) x
    (lvl R 8 64 0x42800000#32 (by norm_num) x
    (lvl R 4 128 0x43000000#32 (by norm_num) x
    (lvl R 2 256 0x43800000#32 (by norm_num) x
    (lvl R 1 512 0x44000000#32 (by norm_num) x
    (ones R)))))))))))

/-- THE TREE IS LOCAL TO THE ROW: the tree of a taller array, read in a block of `R` rows at row `o`, is the tree of
    the block. -/
theorem tree_shift {R R' : Nat} (o : Nat) (ho : o + R ≤ R') (x' : FVec Ideal (A2 R' 1024) .f32)
    (x : FVec Ideal (A2 R 1024) .f32) (hx : ∀ i, x' (shift2 o ho i) = x i) (i : (A2 R 1024).Idx) :
    tree R' x' (shift2 o ho i) = tree R x i := by
  unfold tree
  refine level_shift (n := 512) (b := 1) (by norm_num) _ o ho _ _ _ _ x' _ x _ hx (fun i => ?_) i
  refine level_shift (n := 256) (b := 2) (by norm_num) _ o ho _ _ _ _ x' _ x _ hx (fun i => ?_) i
  refine level_shift (n := 128) (b := 4) (by norm_num) _ o ho _ _ _ _ x' _ x _ hx (fun i => ?_) i
  refine level_shift (n := 64) (b := 8) (by norm_num) _ o ho _ _ _ _ x' _ x _ hx (fun i => ?_) i
  refine level_shift (n := 32) (b := 16) (by norm_num) _ o ho _ _ _ _ x' _ x _ hx (fun i => ?_) i
  refine level_shift (n := 16) (b := 32) (by norm_num) _ o ho _ _ _ _ x' _ x _ hx (fun i => ?_) i
  refine level_shift (n := 8) (b := 64) (by norm_num) _ o ho _ _ _ _ x' _ x _ hx (fun i => ?_) i
  refine level_shift (n := 4) (b := 128) (by norm_num) _ o ho _ _ _ _ x' _ x _ hx (fun i => ?_) i
  refine level_shift (n := 2) (b := 256) (by norm_num) _ o ho _ _ _ _ x' _ x _ hx (fun i => ?_) i
  refine level_shift (n := 1) (b := 512) (by norm_num) _ o ho _ _ _ _ x' _ x _ hx (fun i => ?_) i
  rfl

end Cert.Tree

end
-- ==== Proof.KernelTree.lean ====
/-
  The kernel's body on one block of 1024 rows: the value it stores is the ten-level tree of the block it loaded.
  The body's arithmetic is cut into payloads at arbitrary statements; put back together it is, operation for operation,
  ten levels in the vector unit's spelling, each of which is the level of the library, so the whole is `tree 1024`.
-/
import proofs.«122107_j78108275245686_1_alg».proof.Proof.Gen.KernelIdeal.Skeleton
import proofs.«122107_j78108275245686_1_alg».proof.Proof.TreeSpec

noncomputable section

open Idealize.ShloMosaic Idealize.ShloMosaic.ValueIdx

namespace Cert.KernelTree

open Cert.KernelIdeal Cert.KernelIdeal.Gen Cert.TreeLevel Cert.Tree

/-- What the body stores, as a function of the block it loaded: the payloads composed as the body composes them. -/
def stored (x0 : Vec Ideal S1024x1024 .f32) : FVec Ideal S1024x1024 .f32 :=
  k0_pay1 (F := Ideal) (k0_pay7 x0 (k0_pay6 x0 (k0_pay4 x0 (k0_pay2 x0) (k0_pay3 x0) (Scalar.ofBits .f32 0x43000000#32)) (k0_pay5 x0)))
    (k0_pay8 x0) (k0_pay9 x0) (Scalar.ofBits .f32 0xFF800000#32)

/-- The payloads, put together, are ten levels in the vector unit's spelling, from the array of ones. -/
theorem stored_levels (x0 : Vec Ideal S1024x1024 .f32) :
    stored x0 =
      (levelV1 (R := 1024) (C := 1024) (n := 512) 0x3F800000#32 (by decide) (by decide) (by decide) (by decide) (by decide) (by decide) (by decide) x0
      (levelV (R := 1024) (C := 1024) (n := 256) (b := 2) 0x40000000#32 (by decide) (by decide) (by decide) (by decide) (by decide) (by decide) (by decide) (by decide) x0
      (levelV (R := 1024) (C := 1024) (n := 128) (b := 4) 0x40800000#32 (by decide) (by decide) (by decide) (by decide) (by decide) (by decide) (by decide) (by decide) x0
      (levelV (R := 1024) (C := 1024) (n := 64) (b := 8) 0x41000000#32 (by decide) (by decide) (by decide) (by decide) (by decide) (by decide) (by decide) (by decide) x0
      (levelV (R := 1024) (C := 1024) (n := 32) (b := 16) 0x41800000#32 (by decide) (by decide) (by decide) (by decide) (by decide) (by decide) (by decide) (by decide) x0
      (levelV (R := 1024) (C := 1024) (n := 16) (b := 32) 0x42000000#32 (by decide) (by decide) (by decide) (by decide) (by decide) (by decide) (by decide) (by decide) x0
      (levelV (R := 1024) (C := 1024) (n := 8) (b := 64) 0x42800000#32 (by decide) (by decide) (by decide) (by decide) (by decide) (by decide) (by decide) (by decide) x0
      (levelV (R := 1024) (C := 1024) (n := 4) (b := 128) 0x43000000#32 (by decide) (by decide) (by decide) (by decide) (by decide) (by decide) (by decide) (by decide) x0
      (levelV (R := 1024) (C := 1024) (n := 2) (b := 256) 0x43800000#32 (by decide) (by decide) (by decide) (by decide) (by decide) (by decide) (by decide) (by decide) x0
      (levelV (R := 1024) (C := 1024) (n := 1) (b := 512) 0x44000000#32 (by decide) (by decide) (by decide) (by decide) (by decide) (by decide) (by decide) (by decide) x0
      (broadcast S1024x1024 (Scalar.ofBits (F := Ideal) .f32 0x3F800000#32)))))))))))) := by
  unfold stored k0_pay1 k0_pay2 k0_pay3 k0_pay4 k0_pay5 k0_pay6 k0_pay7 k0_pay8 k0_pay9
  rfl

/-- So the stored block is the tree of the loaded block. -/
theorem stored_eq (x0 : Vec Ideal S1024x1024 .f32) : stored x0 = tree 1024 x0 := by
  rw [stored_levels]
  simp only [levelV_eq, levelV1_eq]
  rfl

end Cert.KernelTree

end
-- ==== Proof.KernelBlocks.lean ====
/-
  From blocks to the array.  The kernel runs on a grid of sixteen points; point `t` loads rows `1024 t … 1024 t + 1023`
  of the argument, and writes back, to the same rows of the result, the tree of the block it loaded.  The tree is
  local to the row, so what point `t` writes is block `t` of the tree of the whole argument; the sixteen blocks cover
  the result array; hence the result ends holding the tree of the argument.
-/
import proofs.«122107_j78108275245686_1_alg».proof.Proof.Gen.KernelIdeal.Value
import proofs.«122107_j78108275245686_1_alg».proof.Proof.KernelTree

set_option maxRecDepth 16384

noncomputable section

namespace Cert.KernelBlocks

open Cert.KernelIdeal Cert.KernelIdeal.Gen Idealize.ShloMosaic Idealize.ShloMosaic.TcCoe Idealize.SL.Sem
open Idealize.ShloMosaic.Pipeline (Dat)
open Idealize.ShloMosaic.ValueIdx
open Cert.TreeLevel Cert.Tree Cert.KernelTree

variable (m : (ℓ : Loc nD τ sig) → Buf (Elt Ideal) ℓ) (ρ : Dev nD → PrngReg)

/-- The body loads and stores its whole buffers: offsets zero. -/
theorem zero_offsets : (![0, 0] : Fin 2 → Nat) = fun _ => 0 := funext fun a => by fin_cases a <;> rfl

/-- What the body leaves in the output's buffer is the tree of the block it loaded. -/
theorem out_eq (x0 : Vec Ideal S1024x1024 .f32) : out0_1 x0 = tree 1024 x0 := by
  unfold out0_1
  rw [View.canon_unit_zero zero_offsets]
  simp only [View.ld_unit_zero (S := S1024x1024) zero_offsets]
  exact stored_eq x0

/-- The grid: point `t` takes block row `t`, block column 0, of the argument and of the result. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Block row `t` lies inside the 16384 rows. -/
theorem point_le (t : Fin cfg0.N) : t.val * 1024 + 1024 ≤ 16384 := by
  have h : t.val < 16 := Nat.lt_of_lt_of_eq t.isLt (show cfg0.N = 16 from N_0)
  omega

/-- An element of point `t`'s block of the argument sits in the array at the block's row offset. -/
theorem in_emb (t : Fin cfg0.N) (y : S1024x1024.Idx) :
    ((cfg0.win 0).blk t).view.emb y = shift2 (R := 1024) (C := 1024) (R' := 16384) (t.val * 1024) (point_le t) y := by
  obtain ⟨e0, e1, -, -⟩ := idx_facts t
  funext a; apply Fin.ext
  match a with
  | ⟨0, _⟩ => show win0_0.index t (0 : Fin 2) * 1024 + 1 * (y 0).val = t.val * 1024 + (y 0).val; rw [e0]; omega
  | ⟨1, _⟩ => show win0_0.index t (1 : Fin 2) * 1024 + 1 * (y 1).val = (y 1).val; rw [e1]; omega

/-- The same for the result's block. -/
theorem out_emb (t : Fin cfg0.N) (y : S1024x1024.Idx) :
    ((cfg0.win 1).blk t).view.emb y = shift2 (R := 1024) (C := 1024) (R' := 16384) (t.val * 1024) (point_le t) y := by
  obtain ⟨-, -, e0, e1⟩ := idx_facts t
  funext a; apply Fin.ext
  match a with
  | ⟨0, _⟩ => show win0_1.index t (0 : Fin 2) * 1024 + 1 * (y 0).val = t.val * 1024 + (y 0).val; rw [e0]; omega
  | ⟨1, _⟩ => show win0_1.index t (1 : Fin 2) * 1024 + 1 * (y 1).val = (y 1).val; rw [e1]; omega

/-- The block point `t` loads, element by element, is the argument at the shifted rows. -/
theorem iblk_apply (c : Dev nD) (t : Fin cfg0.N) (y : S1024x1024.Idx) :
    (iblk m c 0 t : Vec Ideal S1024x1024 .f32) y
      = (V m c main_arg0 : S16384x1024.Idx → Elt Ideal .f32) (shift2 (t.val * 1024) (point_le t) y) := by
  rw [← in_emb]
  rfl

/-- WHAT POINT `t` WRITES BACK is block `t` of the tree of the argument array: the tree of the block, by locality. -/
theorem flushed_eq (c : Dev nD) (t : Fin cfg0.N) :
    (dats m 0 c).flushed 1 t
      = ((cfg0.win 1).blk t).view.read (Elt Ideal) (tree 16384 (V m c main_arg0)) := by
  rw [Cert.KernelIdeal.Value.flushed1, out_eq (iblk m c 0 t)]
  funext y
  show tree 1024 (iblk m c 0 t) y = tree 16384 (V m c main_arg0) (((cfg0.win 1).blk t).view.emb y)
  rw [out_emb]
  exact (tree_shift (t.val * 1024) (point_le t) (V m c main_arg0) (iblk m c 0 t)
    (fun i => (iblk_apply m c t i).symm) y).symm

/-- An index of the result is in point `t`'s block iff each coordinate is in the block's range on its axis. -/
theorem mem_blk (t : Fin cfg0.N) (i : S16384x1024.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- THE COVER: row `r` of the result is in the block of point `r / 1024`. -/
theorem cover (i : S16384x1024.Idx) :
    ∃ t : Fin cfg0.N, (cfg0.win 1).flush t = true ∧ i ∈ ((cfg0.win 1).blk t).view.set := by
  have h0 : (i 0).val < 16384 := (i 0).isLt
  have h1 : (i 1).val < 1024 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, e0, e1⟩ := idx_facts t
  refine ⟨t, flush0_1 t, ?_⟩
  rw [mem_blk]
  intro a
  match a with
  | ⟨0, _⟩ =>
    show win0_1.index t (0 : Fin 2) * 1024 ≤ (i 0).val ∧ (i 0).val < win0_1.index t (0 : Fin 2) * 1024 + 1024
    rw [e0, ht]; omega
  | ⟨1, _⟩ =>
    show win0_1.index t (1 : Fin 2) * 1024 ≤ (i 1).val ∧ (i 1).val < win0_1.index t (1 : Fin 2) * 1024 + 1024
    rw [e1]; omega

/-- THE RESULT ARRAY after the run is the tree of the argument array. -/
theorem final (c : Dev nD) :
    (dats m 0 c).arrAt 1 cfg0.N = tree 16384 (m ((c : Thread nD τ).loc main_arg0)) :=
  (dats m 0 c).arrAt_eq_of_cover 1 (tree 16384 (V m c main_arg0)) (fun t _ => flushed_eq m c t) cover

/-- The kernel's run, read: the result at the tree of the argument, the argument unchanged. -/
theorem run : θ_run defs (onTc (τ := τ) (main (F := Ideal))) ⟨m, fun _ => 0, ρ⟩ fun r => ∀ c : Dev nD,
      r.2.mem ((c : Thread nD τ).loc main_v0) = tree 16384 (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelBlocks

end
-- ==== Proof.RefTree.lean ====
/-
  The reference's result: the composed term its run ends at is, operation for operation, ten levels in the host's
  spelling from the array of ones, each of which is the level of the library; so the result is `tree 16384` of the
  argument array.
-/
import proofs.«122107_j78108275245686_1_alg».proof.Proof.Gen.ReferenceIdeal.Run
import proofs.«122107_j78108275245686_1_alg».proof.Proof.TreeSpec

noncomputable section

open Idealize.ShloMosaic Idealize.ShloMosaic.ValueIdx Idealize.ShloMosaic.StableHlo

namespace Cert.RefTree

open Cert.ReferenceIdeal Cert.ReferenceIdeal.Gen Cert.ReferenceIdeal.Value Cert.TreeLevel Cert.Tree

/-- Ten levels in the host's spelling, from the array of ones. -/
def hostLevels (x : FVec Ideal S16384x1024 .f32) : FVec Ideal S16384x1024 .f32 :=
      (levelH1 (R := 16384) (C := 1024) (n := 512) 0x3F800000#32 (by decide) (by decide) (by decide) (by decide) (by decide) (by decide) (by decide) (by decide) (by decide) (by decide) x
      (levelH (R := 16384) (C := 1024) (n := 256) (b := 2) 0x40000000#32 (by decide) (by decide) (by decide) (by decide) (by decide) (by decide) (by decide) (by decide) (by decide) (by decide) (by decide) x
      (levelH (R := 16384) (C := 1024) (n := 128) (b := 4) 0x40800000#32 (by decide) (by decide) (by decide) (by decide) (by decide) (by decide) (by decide) (by decide) (by decide) (by decide) (by decide) x
      (levelH (R := 16384) (C := 1024) (n := 64) (b := 8) 0x41000000#32 (by decide) (by decide) (by decide) (by decide) (by decide) (by decide) (by decide) (by decide) (by decide) (by decide) (by decide) x
      (levelH (R := 16384) (C := 1024) (n := 32) (b := 16) 0x41800000#32 (by decide) (by decide) (by decide) (by decide) (by decide) (by decide) (by decide) (by decide) (by decide) (by decide) (by decide) x
      (levelH (R := 16384) (C := 1024) (n := 16) (b := 32) 0x42000000#32 (by decide) (by decide) (by decide) (by decide) (by decide) (by decide) (by decide) (by decide) (by decide) (by decide) (by decide) x
      (levelH (R := 16384) (C := 1024) (n := 8) (b := 64) 0x42800000#32 (by decide) (by decide) (by decide) (by decide) (by decide) (by decide) (by decide) (by decide) (by decide) (by decide) (by decide) x
      (levelH (R := 16384) (C := 1024) (n := 4) (b := 128) 0x43000000#32 (by decide) (by decide) (by decide) (by decide) (by decide) (by decide) (by decide) (by decide) (by decide) (by decide) (by decide) x
      (levelH (R := 16384) (C := 1024) (n := 2) (b := 256) 0x43800000#32 (by decide) (by decide) (by decide) (by decide) (by decide) (by decide) (by decide) (by decide) (by decide) (by decide) (by decide) x
      (levelH (R := 16384) (C := 1024) (n := 1) (b := 512) 0x44000000#32 (by decide) (by decide) (by decide) (by decide) (by decide) (by decide) (by decide) (by decide) (by decide) (by decide) (by decide) x
      (broadcastInDim S16384x1024 ![] (by decide) (constant (F := Ideal) S_ .f32 0x3F800000#32))))))))))))

/-- Each is the library's level, so together they are the tree. -/
theorem hostLevels_eq (x : FVec Ideal S16384x1024 .f32) : hostLevels x = tree 16384 x := by
  unfold hostLevels
  simp only [levelH_eq, levelH1_eq]
  rfl

set_option maxRecDepth 8192 in
/-- The result buffer after the reference's operations is the tree of the argument array. -/
theorem result_eq (V0 : Valuation τ sig (Elt Ideal)) :
    val5 V0 (Proc.devRef .tc main_v199) = tree 16384 (V0 (Proc.devRef .tc main_arg0)) := by
  refine (val5_main_v199 V0).trans ?_
  refine Eq.trans ?_ (hostLevels_eq (V0 (Proc.devRef .tc main_arg0)))
  unfold hostLevels res_main_v191 res_main_v184 res_main_v171 res_main_v164 res_main_v156 res_main_v151 res_main_v144 res_main_v131 res_main_v124 res_main_v111 res_main_v104 res_main_v91 res_main_v84 res_main_v71 res_main_v64 res_main_v51 res_main_v44 res_main_v31 res_main_v24 res_main_v11 res_main_v4
  rfl

end Cert.RefTree

end
-- ==== Proof.lean ====
/-
  The kernel computes, for every row of a 16384 × 1024 array, the class probabilities of a soft decision tree over a
  complete binary tree on the row's 1024 leaves: the product, over the ten levels, of the two-way softmax of the means of
  the row over the two halves of each node's leaves.  It does so sixteen blocks of 1024 rows at a time; the reference
  does it on the whole array at once with the host's operations.

  At the exact extended reals the two are one function of the argument array (`Cert.Tree.tree`).  Each level — a
  reshape to rows × nodes × children × leaves, a mean over the leaves, a maximum, exponentials, their sum, a quotient, a
  product, a reshape back — reads the same elements in either spelling (Proof/LibTreeLevel.lean), and no law of
  arithmetic is needed beyond `0 + s = s`: the two sides are the same expression of the same elements, so the
  precondition is never opened.  A level, hence the tree, is local to the row (`tree_shift`), which is what lets the
  sixteen blocks be computed apart (Proof/KernelBlocks.lean); the reference's run ends at the tree of the whole array
  (Proof/RefTree.lean).  The kernel's idealization rewrites nothing, so `preserves` has nothing to state.
-/
import proofs.«122107_j78108275245686_1_alg».proof.Defs
import proofs.«122107_j78108275245686_1_alg».proof.Proof.Gen.Kernel
import proofs.«122107_j78108275245686_1_alg».proof.Proof.Gen.Kernel.Skeleton
import proofs.«122107_j78108275245686_1_alg».proof.Proof.Gen.Kernel.Launch
import proofs.«122107_j78108275245686_1_alg».proof.Proof.Gen.Kernel.Points
import proofs.«122107_j78108275245686_1_alg».proof.Proof.Gen.Kernel.Frame
import proofs.«122107_j78108275245686_1_alg».proof.Proof.Gen.KernelIdeal
import proofs.«122107_j78108275245686_1_alg».proof.Proof.Gen.KernelIdeal.Skeleton
import proofs.«122107_j78108275245686_1_alg».proof.Proof.Gen.KernelIdeal.Launch
import proofs.«122107_j78108275245686_1_alg».proof.Proof.Gen.KernelIdeal.Points
import proofs.«122107_j78108275245686_1_alg».proof.Proof.Gen.KernelIdeal.Frame
import proofs.«122107_j78108275245686_1_alg».proof.Proof.Gen.ReferenceIdeal
import proofs.«122107_j78108275245686_1_alg».proof.Proof.Gen.Pre_finite_inputs
import proofs.«122107_j78108275245686_1_alg».proof.Proof.Gen.KernelIdeal.Value
import proofs.«122107_j78108275245686_1_alg».proof.Proof.Gen.ReferenceIdeal.Run
import proofs.«122107_j78108275245686_1_alg».proof.Proof.KernelBlocks
import proofs.«122107_j78108275245686_1_alg».proof.Proof.RefTree
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs and leaves its argument as it found it. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the ten-level tree of the argument array. -/
theorem algebraic : Cert.algebraic_KernelIdeal_ReferenceIdeal := by
  intro m ρ m' ρ' _ hagree
  refine ⟨fun c => Cert.Tree.tree 16384 (m ((c.tc : Thread Cert.KernelIdeal.nD Cert.KernelIdeal.τ).loc Cert.KernelIdeal.main_arg0)),
    Cert.KernelBlocks.run m ρ, ?_⟩
  refine (θ_run Cert.ReferenceIdeal.defs _ _).mono (fun _ h c => ⟨?_, (h c).2⟩)
    (Cert.ReferenceIdeal.Value.run (F := Ideal) m' ρ')
  show _ = Cert.Tree.tree 16384 (m ((c.tc : Thread Cert.KernelIdeal.nD Cert.KernelIdeal.τ).loc Cert.KernelIdeal.main_arg0))
  rw [← hagree c]
  exact ((h c).1.trans (Cert.ReferenceIdeal.Value.val5_main_v199 (launchContents m' c)).symm).trans
    (Cert.RefTree.result_eq (launchContents m' c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
